-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x4096 : Shape := ⟨2, ![4096, 4096]⟩
abbrev S4096x1 : Shape := ⟨2, ![4096, 1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part4 {F : FTy → Type} [FloatOps F] (main_arg14 : FVec F S4096x1 .f32) (main_v63 : IVec S_ 1) (main_v67 : IVec S_ 1) : IVec S_ 1 :=
  let main_v68 : IVec S_ 1 := andi main_v63 main_v67
  let main_v69 : FVec F S4096x1 .f32 := Host.absf main_arg14
  let main_cst_26 : FVec F S_ .f32 := constant S_ .f32 0x7F800000#32
  let main_v70 : FVec F S4096x1 .f32 := broadcastInDim S4096x1 ![] bcast_S_S4096x1 main_cst_26
  let main_v71 : IVec S4096x1 1 := cmpf .olt main_v69 main_v70
  let main_c_27 : IVec S_ 1 := constantI S_ 1 1#1
  let main_v72 : IVec S_ 1 := (fun x v => Host.reduce IntOp.andi x v reducesTo_S4096x1_S_d0_1 h_S_) main_v71 main_c_27
  let main_v73 : IVec S_ 1 := andi main_v68 main_v72
  main_v73

def fn_part3 {F : FTy → Type} [FloatOps F] (main_arg11 : FVec F S4096x1 .f32) (main_arg12 : FVec F S4096x1 .f32) (main_arg13 : FVec F S4096x1 .f32) (main_arg14 : FVec F S4096x1 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096x1 .f32 := Host.absf main_arg11
  let main_cst_20 : FVec F S_ .f32 := constant S_ .f32 0x7F800000#32
  let main_v55 : FVec F S4096x1 .f32 := broadcastInDim S4096x1 ![] bcast_S_S4096x1 main_cst_20
  let main_v56 : IVec S4096x1 1 := cmpf .olt main_v54 main_v55
  let main_c_21 : IVec S_ 1 := constantI S_ 1 1#1
  let main_v57 : IVec S_ 1 := (fun x v => Host.reduce IntOp.andi x v reducesTo_S4096x1_S_d0_1 h_S_) main_v56 main_c_21
  let main_v58 : IVec S_ 1 := andi main_v53 main_v57
  let main_v59 : FVec F S4096x1 .f32 := Host.absf main_arg12
  let main_cst_22 : FVec F S_ .f32 := constant S_ .f32 0x7F800000#32
  let main_v60 : FVec F S4096x1 .f32 := broadcastInDim S4096x1 ![] bcast_S_S4096x1 main_cst_22
  let main_v61 : IVec S4096x1 1 := cmpf .olt main_v59 main_v60
  let main_c_23 : IVec S_ 1 := constantI S_ 1 1#1
  let main_v62 : IVec S_ 1 := (fun x v => Host.reduce IntOp.andi x v reducesTo_S4096x1_S_d0_1 h_S_) main_v61 main_c_23
  let main_v63 : IVec S_ 1 := andi main_v58 main_v62
  let main_v64 : FVec F S4096x1 .f32 := Host.absf main_arg13
  let main_cst_24 : FVec F S_ .f32 := constant S_ .f32 0x7F800000#32
  let main_v65 : FVec F S4096x1 .f32 := broadcastInDim S4096x1 ![] bcast_S_S4096x1 main_cst_24
  let main_v66 : IVec S4096x1 1 := cmpf .olt main_v64 main_v65
  let main_c_25 : IVec S_ 1 := constantI S_ 1 1#1
  let main_v67 : IVec S_ 1 := (fun x v => Host.reduce IntOp.andi x v reducesTo_S4096x1_S_d0_1 h_S_) main_v66 main_c_25
  fn_part4 (F := F) main_arg14 main_v63 main_v67

def fn_part2 {F : FTy → Type} [FloatOps F] (main_arg7 : FVec F S4096x4096 .f32) (main_arg8 : FVec F S4096x4096 .f32) (main_arg9 : FVec F S4096x4096 .f32) (main_arg10 : FVec F S4096x4096 .f32) (main_arg11 : FVec F S4096x1 .f32) (main_arg12 : FVec F S4096x1 .f32) (main_arg13 : FVec F S4096x1 .f32) (main_arg14 : FVec F S4096x1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_arg14 main_v48 main_v49 main_v50

def fn_part1 {F : FTy → Type} [FloatOps F] (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_arg10 : FVec F S4096x4096 .f32) (main_arg11 : FVec F S4096x1 .f32) (main_arg12 : FVec F S4096x1 .f32) (main_arg13 : FVec F S4096x1 .f32) (main_arg14 : FVec F S4096x1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096 .f32) (main_arg1 : FVec F S4096 .f32) (main_arg2 : FVec F S4096 .f32) (main_arg3 : FVec F S4096x4096 .f32) (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_arg10 : FVec F S4096x4096 .f32) (main_arg11 : FVec F S4096x1 .f32) (main_arg12 : FVec F S4096x1 .f32) (main_arg13 : FVec F S4096x1 .f32) (main_arg14 : FVec F S4096x1 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096 : Shape := ⟨1, ![4096]⟩
abbrev S4096x4096 : Shape := ⟨2, ![4096, 4096]⟩
abbrev S4096x1 : Shape := ⟨2, ![4096, 1]⟩
abbrev S1x1x4096 : Shape := ⟨3, ![1, 1, 4096]⟩
abbrev S128x1 : Shape := ⟨2, ![128, 1]⟩
abbrev S128x4096 : Shape := ⟨2, ![128, 4096]⟩
abbrev S1x1x128 : Shape := ⟨3, ![1, 1, 128]⟩
abbrev S1x128 : Shape := ⟨2, ![1, 128]⟩

abbrev nBuf : Space → Nat
  | .hbm => 21
  | .vmem => 32
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S1x1x4096, .f32⟩
  | .hbm, ⟨19, _⟩ => ⟨S1x1x4096, .f32⟩
  | .hbm, ⟨20, _⟩ => ⟨S4096x1, .f32⟩
  | .local _ .vmem, ⟨0, _⟩ => ⟨S4096x1, .f32⟩
  | .local _ .vmem, ⟨1, _⟩ => ⟨S4096x1, .f32⟩
  | .local _ .vmem, ⟨2, _⟩ => ⟨S128x1, .f32⟩
  | .local _ .vmem, ⟨3, _⟩ => ⟨S128x1, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x4096, .f32⟩
  | .local _ .vmem, ⟨20, _⟩ => ⟨S128x1, .f32⟩
  | .local _ .vmem, ⟨21, _⟩ => ⟨S128x1, .f32⟩
  | .local _ .vmem, ⟨22, _⟩ => ⟨S128x1, .f32⟩
  | .local _ .vmem, ⟨23, _⟩ => ⟨S128x1, .f32⟩
  | .local _ .vmem, ⟨24, _⟩ => ⟨S128x1, .f32⟩
  | .local _ .vmem, ⟨25, _⟩ => ⟨S128x1, .f32⟩
  | .local _ .vmem, ⟨26, _⟩ => ⟨S128x1, .f32⟩
  | .local _ .vmem, ⟨27, _⟩ => ⟨S128x1, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x4096_S128x4096_0_0 : ∀ a, (![0, 0] : Fin 2 → Nat) a + S128x4096.size a ≤ S128x4096.size a
  h_S128x4096 : 0 < S128x4096.numel
  transposes_S128x1_p1_0_S1x128 : S128x1.Transposes [1, 0] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S1x1x4096_S4096x1 : S1x1x4096.ShapeCasts S4096x1
  dot_S128x4096_S4096x1_S128x1_1_0_0_1_n_n_wf : DotDims.WF S128x4096 S4096x1 S128x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S4096x1.size a
  hwx0_0 : ∀ i : grid0.Coords, EltTy.bits .f32 = 32 ∨ (Rect.block (s := S4096x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .f32 = 32 ∨ (Rect.block (s := S4096x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S4096x4096.size a
  hwx0_7 : ∀ i : grid0.Coords, EltTy.bits .f32 = 32 ∨ (Rect.block (s := S4096x4096) S128x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S4096x4096.size a
  hwx0_8 : ∀ i : grid0.Coords, EltTy.bits .f32 = 32 ∨ (Rect.block (s := S4096x4096) S128x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x4096.size a ≤ S4096x4096.size a
  hwx0_9 : ∀ i : grid0.Coords, EltTy.bits .f32 = 32 ∨ (Rect.block (s := S4096x4096) S128x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x4096.size a ≤ S4096x4096.size a
  hwx0_10 : ∀ i : grid0.Coords, EltTy.bits .f32 = 32 ∨ (Rect.block (s := S4096x4096) S128x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S4096x1.size a
  hwx0_11 : ∀ i : grid0.Coords, EltTy.bits .f32 = 32 ∨ (Rect.block (s := S4096x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S4096x1.size a
  hwx0_12 : ∀ i : grid0.Coords, EltTy.bits .f32 = 32 ∨ (Rect.block (s := S4096x1) S128x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S4096x1.size a
  hwx0_13 : ∀ i : grid0.Coords, EltTy.bits .f32 = 32 ∨ (Rect.block (s := S4096x1) S128x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S4096x1.size a
  hwx0_14 : ∀ i : grid0.Coords, EltTy.bits .f32 = 32 ∨ (Rect.block (s := S4096x1) S128x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x128.size a ≤ S1x1x4096.size a
  hwx0_15 : ∀ i : grid0.Coords, EltTy.bits .f32 = 32 ∨ (Rect.block (s := S1x1x4096) S1x1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x128.size a ≤ S1x1x4096.size a
  hwx0_16 : ∀ i : grid0.Coords, EltTy.bits .f32 = 32 ∨ (Rect.block (s := S1x1x4096) S1x1x128.size (cc0_transform_16 i) (hinb0_16 i)).WholeWords (EltTy.packing .f32)

variable [Facts₀]

def dot_S128x4096_S4096x1_S128x1_1_0_0_1_n_n : DotDims S128x4096 S4096x1 S128x1 where
  lhsContracting := [1]
  rhsContracting := [0]
  lhsNonContracting := [0]
  rhsNonContracting := [1]
  lhsBatch := []
  rhsBatch := []
  wf := dot_S128x4096_S4096x1_S128x1_1_0_0_1_n_n_wf

abbrev win0_0 : Pipeline.Window sig grid0 :=
  Pipeline.Window.ofSpec (Memref.whole main_v0) S4096x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x4096.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x4096.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x4096.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x1.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x1.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x1.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v3_0) S1x1x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v3_1) S1x1x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096 : Shape := ⟨1, ![4096]⟩
abbrev S4096x4096 : Shape := ⟨2, ![4096, 4096]⟩
abbrev S4096x1 : Shape := ⟨2, ![4096, 1]⟩
abbrev S_ : Shape := ⟨0, ![]⟩
abbrev S1x1x4096 : Shape := ⟨3, ![1, 1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S1x1x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  shapeCasts_S4096_S4096x1 : S4096.ShapeCasts S4096x1
  bcast_S_S4096x1 : S_.BroadcastsInDim S4096x1 (![] : Fin 0 → Fin S4096x1.rank)
  shapeCasts_S4096x1_S1x1x4096 : S4096x1.ShapeCasts S1x1x4096
  dot_S4096x4096_S4096x1_S4096x1_1_0_0_1_n_n_wf : DotDims.WF S4096x4096 S4096x1 S4096x1 [1] [0] [0] [1] [] []

variable [Facts₀]

def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.Cell.lean ====
/-
  One step of a gated recurrent cell on vectors of length 4096, written row by row on the extended reals.

  For a row r, each of the four gates i, f, g, o is the logistic function of one pre-activation,

      gate W W' x h b r = σ( (∑ₖ W r k · x k  +  ∑ₖ W' r k · h k)  +  b r ),        σ z = 1 / (1 + e^(-z)),

  an inner product of row r of an input weight matrix with the input x, plus an inner product of row r of a
  recurrent weight matrix with the previous hidden state h, plus a bias. All four gates are logistic (the
  candidate gate g too). The new cell state and the new hidden state at row r are

      c' r = f r · c r + i r · g r,          h' r = o r · tanh (c' r).

  Nothing here assumes a finite entry: every operation is the extended reals' own, applied in this order, so the
  two programs compared against this text only have to perform the same operations in the same order.
-/
import Idealize.ShloMosaic.PureOps.Ideal
import Idealize.ShloMosaic.Lib.ValueIdx

noncomputable section

namespace Cell

open Idealize.ShloMosaic Idealize.ShloMosaic.ValueIdx

/-- A vector of length 4096. -/
abbrev Vec1 : Type := (⟨1, ![4096]⟩ : Shape).Idx → EReal
/-- A 4096 × 4096 matrix. -/
abbrev Mat : Type := (⟨2, ![4096, 4096]⟩ : Shape).Idx → EReal
/-- A column of height 4096. -/
abbrev Col : Type := (⟨2, ![4096, 1]⟩ : Shape).Idx → EReal

/-- One gate's activation from ONE row of each weight matrix: the logistic function of
    (⟨u, x⟩ + ⟨u', h⟩) + b, the two inner products added first and the bias last. -/
def rowGate (u u' x h : Fin 4096 → EReal) (b : EReal) : EReal :=
  Ideal.logistic ((∑ k : Fin 4096, u k * x k + ∑ k : Fin 4096, u' k * h k) + b)

/-- A gate at row r of the whole arrays: `rowGate` of row r of W and of W', the vectors x and h, and entry r of the
    bias column. -/
def gate (W W' : Mat) (x h : Vec1) (b : Col) (r : Fin 4096) : EReal :=
  rowGate (fun k => W (ix2 r k)) (fun k => W' (ix2 r k)) (fun k => x (ix1 k)) (fun k => h (ix1 k)) (b (ix2 r (0 : Fin 1)))

/-- The new cell state at row r: forget gate times the old cell state, plus input gate times candidate gate. -/
def cellC (x h c : Vec1) (Wii Wif Wig Whi Whf Whg : Mat) (bi bf bg : Col) (r : Fin 4096) : EReal :=
  gate Wif Whf x h bf r * c (ix1 r) + gate Wii Whi x h bi r * gate Wig Whg x h bg r

/-- The new hidden state at row r: output gate times the hyperbolic tangent of the new cell state. -/
def cellH (x h c : Vec1) (Wii Wif Wig Wio Whi Whf Whg Who : Mat) (bi bf bg bo : Col) (r : Fin 4096) : EReal :=
  gate Wio Who x h bo r * Ideal.tanh (cellC x h c Wii Wif Wig Whi Whf Whg bi bf bg r)

/-! ## The result arrays -/

/-- A [1, 1, 4096] array. -/
abbrev Lane : Type := (⟨3, ![1, 1, 4096]⟩ : Shape).Idx → EReal

/-- The new cell state as a column: entry [r, 0] is `cellC` at row r. -/
def colC (x h c : Vec1) (Wii Wif Wig Whi Whf Whg : Mat) (bi bf bg : Col) : Col :=
  fun i => cellC x h c Wii Wif Wig Whi Whf Whg bi bf bg ⟨(i 0).val, (i 0).isLt⟩

/-- The new cell state laid along the last axis of a [1, 1, 4096] array: entry [0, 0, r] is `cellC` at row r. -/
def laneC (x h c : Vec1) (Wii Wif Wig Whi Whf Whg : Mat) (bi bf bg : Col) : Lane :=
  fun i => cellC x h c Wii Wif Wig Whi Whf Whg bi bf bg ⟨(i 2).val, (i 2).isLt⟩

/-- The new hidden state laid along the last axis of a [1, 1, 4096] array: entry [0, 0, r] is `cellH` at row r. -/
def laneH (x h c : Vec1) (Wii Wif Wig Wio Whi Whf Whg Who : Mat) (bi bf bg bo : Col) : Lane :=
  fun i => cellH x h c Wii Wif Wig Wio Whi Whf Whg Who bi bf bg bo ⟨(i 2).val, (i 2).isLt⟩

/-- `colC` read at an index whose first coordinate is r. -/
theorem colC_apply (x h c : Vec1) (Wii Wif Wig Whi Whf Whg : Mat) (bi bf bg : Col)
    (i : (⟨2, ![4096, 1]⟩ : Shape).Idx) (r : Fin 4096) (hr : (i 0).val = r.val) :
    colC x h c Wii Wif Wig Whi Whf Whg bi bf bg i = cellC x h c Wii Wif Wig Whi Whf Whg bi bf bg r :=
  congrArg (cellC x h c Wii Wif Wig Whi Whf Whg bi bf bg) (Fin.ext hr)

/-- `laneC` read at an index whose last coordinate is r. -/
theorem laneC_apply (x h c : Vec1) (Wii Wif Wig Whi Whf Whg : Mat) (bi bf bg : Col)
    (i : (⟨3, ![1, 1, 4096]⟩ : Shape).Idx) (r : Fin 4096) (hr : (i 2).val = r.val) :
    laneC x h c Wii Wif Wig Whi Whf Whg bi bf bg i = cellC x h c Wii Wif Wig Whi Whf Whg bi bf bg r :=
  congrArg (cellC x h c Wii Wif Wig Whi Whf Whg bi bf bg) (Fin.ext hr)

/-- `laneH` read at an index whose last coordinate is r. -/
theorem laneH_apply (x h c : Vec1) (Wii Wif Wig Wio Whi Whf Whg Who : Mat) (bi bf bg bo : Col)
    (i : (⟨3, ![1, 1, 4096]⟩ : Shape).Idx) (r : Fin 4096) (hr : (i 2).val = r.val) :
    laneH x h c Wii Wif Wig Wio Whi Whf Whg Who bi bf bg bo i = cellH x h c Wii Wif Wig Wio Whi Whf Whg Who bi bf bg bo r :=
  congrArg (cellH x h c Wii Wif Wig Wio Whi Whf Whg Who bi bf bg bo) (Fin.ext hr)

/-! ## The same cell on a block of 128 rows

A block holds 128 consecutive rows of each weight matrix, of each bias column and of the old cell state, beside the
whole columns x and h. Row p of the block is row r of the arrays as soon as the block's rows ARE the arrays' rows
p ↦ r, entry by entry: the inner products then run over the same 4096 products in the same order. -/

/-- 128 rows of a weight matrix. -/
abbrev BMat : Type := (⟨2, ![128, 4096]⟩ : Shape).Idx → EReal
/-- 128 entries of a column. -/
abbrev BCol : Type := (⟨2, ![128, 1]⟩ : Shape).Idx → EReal

/-- A gate at row p of a block, the vectors x and h given as columns. -/
def blkGate (W W' : BMat) (x h : Col) (b : BCol) (p : Fin 128) : EReal :=
  rowGate (fun k => W (ix2 p k)) (fun k => W' (ix2 p k)) (fun k => x (ix2 k (0 : Fin 1))) (fun k => h (ix2 k (0 : Fin 1)))
    (b (ix2 p (0 : Fin 1)))

/-- The new cell state at row p of a block. -/
def blkC (x h : Col) (c : BCol) (Wii Wif Wig Whi Whf Whg : BMat) (bi bf bg : BCol) (p : Fin 128) : EReal :=
  blkGate Wif Whf x h bf p * c (ix2 p (0 : Fin 1)) + blkGate Wii Whi x h bi p * blkGate Wig Whg x h bg p

/-- The new hidden state at row p of a block. -/
def blkH (x h : Col) (c : BCol) (Wii Wif Wig Wio Whi Whf Whg Who : BMat) (bi bf bg bo : BCol) (p : Fin 128) : EReal :=
  blkGate Wio Who x h bo p * Ideal.tanh (blkC x h c Wii Wif Wig Whi Whf Whg bi bf bg p)

/-- A block gate is the arrays' gate at row r when row p of each block is row r of its array and the columns are the
    vectors. -/
theorem blkGate_eq {W W' : BMat} {x h : Col} {b : BCol} {M M' : Mat} {X H : Vec1} {B : Col} {p : Fin 128} {r : Fin 4096}
    (hW : ∀ k : Fin 4096, W (ix2 p k) = M (ix2 r k)) (hW' : ∀ k : Fin 4096, W' (ix2 p k) = M' (ix2 r k))
    (hx : ∀ k : Fin 4096, x (ix2 k (0 : Fin 1)) = X (ix1 k)) (hh : ∀ k : Fin 4096, h (ix2 k (0 : Fin 1)) = H (ix1 k))
    (hb : b (ix2 p (0 : Fin 1)) = B (ix2 r (0 : Fin 1))) :
    blkGate W W' x h b p = gate M M' X H B r := by
  unfold blkGate gate
  simp only [hW, hW', hx, hh, hb]

/-- The block's cell state at row p is the arrays' at row r, from its three gates and the old cell state. -/
theorem blkC_eq {x h : Col} {c : BCol} {wii wif wig whi whf whg : BMat} {bi bf bg : BCol}
    {X H C : Vec1} {Wii Wif Wig Whi Whf Whg : Mat} {Bi Bf Bg : Col} {p : Fin 128} {r : Fin 4096}
    (hi : blkGate wii whi x h bi p = gate Wii Whi X H Bi r) (hf : blkGate wif whf x h bf p = gate Wif Whf X H Bf r)
    (hg : blkGate wig whg x h bg p = gate Wig Whg X H Bg r) (hc : c (ix2 p (0 : Fin 1)) = C (ix1 r)) :
    blkC x h c wii wif wig whi whf whg bi bf bg p = cellC X H C Wii Wif Wig Whi Whf Whg Bi Bf Bg r := by
  unfold blkC cellC
  rw [hi, hf, hg, hc]

/-- The block's hidden state at row p is the arrays' at row r, from the output gate and the cell state. -/
theorem blkH_eq {x h : Col} {c : BCol} {wii wif wig wio whi whf whg who : BMat} {bi bf bg bo : BCol}
    {X H C : Vec1} {Wii Wif Wig Wio Whi Whf Whg Who : Mat} {Bi Bf Bg Bo : Col} {p : Fin 128} {r : Fin 4096}
    (ho : blkGate wio who x h bo p = gate Wio Who X H Bo r)
    (hC : blkC x h c wii wif wig whi whf whg bi bf bg p = cellC X H C Wii Wif Wig Whi Whf Whg Bi Bf Bg r) :
    blkH x h c wii wif wig wio whi whf whg who bi bf bg bo p = cellH X H C Wii Wif Wig Wio Whi Whf Whg Who Bi Bf Bg Bo r := by
  unfold blkH cellH
  rw [ho, hC]

end Cell

end
-- ==== Proof.LibLogistic.lean ====
/-
  The logistic function on the extended reals: logistic z = 1 / (1 + exp (-z)), with value 0 at -∞ and 1 at +∞.

  * It takes values in [0, 1] only (`logistic_nonneg`, `logistic_le_one`, `logistic_ne_top`, `logistic_ne_bot`): it is never infinite,
    whatever its argument.
  * Hence multiplying by it distributes over EVERY sum of two extended reals, infinite or opposite-infinite terms included
    (`logistic_mul_add`, `add_mul_logistic`) — the step that lets a gated sum  s · (g + c)  be compared with  s · g + s · c  with no
    finiteness hypothesis on g or c.
  * The host's spelling  1 / (1 + exp (-z))  with the f32 literal one is the logistic function (`hostSigmoid_eq_logistic`).
-/
import Idealize.ShloMosaic.PureOps.Ideal
import Idealize.ShloMosaic.Lib.IdealHost

noncomputable section

namespace LibLogistic

open Idealize.ShloMosaic

/-- The logistic function is non-negative at every extended real. -/
theorem logistic_nonneg (x : EReal) : 0 ≤ Ideal.logistic x := by
  induction x using EReal.rec with
  | bot => rw [Ideal.logistic_bot]
  | coe r =>
    rw [Ideal.logistic_coe]
    have : (0 : ℝ) ≤ (1 + Real.exp (-r))⁻¹ := by positivity
    exact_mod_cast this
  | top => rw [Ideal.logistic_top]; exact zero_le_one

/-- The logistic function is at most one at every extended real. -/
theorem logistic_le_one (x : EReal) : Ideal.logistic x ≤ 1 := by
  induction x using EReal.rec with
  | bot => rw [Ideal.logistic_bot]; exact zero_le_one
  | coe r =>
    rw [Ideal.logistic_coe]
    have h1 : (1 : ℝ) ≤ 1 + Real.exp (-r) := by have := Real.exp_pos (-r); linarith
    have : (1 + Real.exp (-r))⁻¹ ≤ (1 : ℝ) := inv_le_one_of_one_le₀ h1
    exact_mod_cast this
  | top => rw [Ideal.logistic_top]

/-- The logistic function is never +∞. -/
theorem logistic_ne_top (x : EReal) : Ideal.logistic x ≠ ⊤ := by
  induction x using EReal.rec with
  | bot => rw [Ideal.logistic_bot]; exact EReal.zero_ne_top
  | coe r => rw [Ideal.logistic_coe]; exact EReal.coe_ne_top _
  | top => rw [Ideal.logistic_top, ← EReal.coe_one]; exact EReal.coe_ne_top 1

/-- The logistic function is never -∞. -/
theorem logistic_ne_bot (x : EReal) : Ideal.logistic x ≠ ⊥ :=
  fun h => absurd (h ▸ logistic_nonneg x) (by simp)

/-- Multiplying by a logistic value distributes over any sum of two extended reals. -/
theorem logistic_mul_add (z g c : EReal) :
    Ideal.logistic z * (g + c) = Ideal.logistic z * g + Ideal.logistic z * c :=
  EReal.left_distrib_of_nonneg_of_ne_top (logistic_nonneg z) (logistic_ne_top z) g c

/-- The same with the logistic value on the right. -/
theorem add_mul_logistic (z g c : EReal) :
    (g + c) * Ideal.logistic z = g * Ideal.logistic z + c * Ideal.logistic z := by
  rw [mul_comm, logistic_mul_add, mul_comm (Ideal.logistic z) g, mul_comm (Ideal.logistic z) c]

/-- 1 / (1 + exp (-z)), in the host's operations with the f32 literal one, is the logistic function on every extended real. -/
theorem hostSigmoid_eq_logistic (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  rw [Ideal.ofBits_def, Ideal.ofBits_one_f32]
  rfl

end LibLogistic

end
-- ==== Proof.RefCell.lean ====
/-
  The reference program computes the cell of Cell.lean, row by row.

  Its sigmoid is spelt 1 / (1 + exp (-z)) with the literal one, which is the logistic function on every extended
  real; its matrix-vector products are sums over the contracted axis; its reshapes of the three vectors to columns
  and of the hidden state to a [1, 1, 4096] array only rename indices. So the cell state it returns, read at
  [r, 0], is `Cell.cellC` at row r, and the hidden state it returns, read at [0, 0, r], is `Cell.cellH` at row r.
-/
import proofs.«176720_j86380382257772_2_alg».proof.Proof.Gen.ReferenceIdeal.Read
import proofs.«176720_j86380382257772_2_alg».proof.Proof.Cell
import proofs.«176720_j86380382257772_2_alg».proof.Proof.LibLogistic

noncomputable section

namespace Cert.ReferenceIdeal.RefCell

open Cert.ReferenceIdeal Cert.ReferenceIdeal.Gen Cert.ReferenceIdeal.Read
open Idealize.ShloMosaic Idealize.ShloMosaic.ValueIdx

/-- Row r, column k of a weight matrix, as the matrix-vector product's left index. -/
theorem lidx_eq (r : Fin 4096) (q : Fin 1) (k : Fin 4096) :
    lidx_main_v3 (ix2 r q) k = ix2 r k ∧ lidx_main_v4 (ix2 r q) k = ix2 r k
    ∧ lidx_main_v13 (ix2 r q) k = ix2 r k ∧ lidx_main_v14 (ix2 r q) k = ix2 r k
    ∧ lidx_main_v23 (ix2 r q) k = ix2 r k ∧ lidx_main_v24 (ix2 r q) k = ix2 r k
    ∧ lidx_main_v33 (ix2 r q) k = ix2 r k ∧ lidx_main_v34 (ix2 r q) k = ix2 r k := by
  refine ⟨?_, ?_, ?_, ?_, ?_, ?_, ?_, ?_⟩ <;>
    exact funext fun a => by match a with | ⟨0, _⟩ => rfl | ⟨1, _⟩ => rfl

/-- Entry k of the column a vector was reshaped to is entry k of the vector. -/
theorem col_eq (r : Fin 4096) (q : Fin 1) (k : Fin 4096) :
    idx_main_v0 (ridx_main_v3 (ix2 r q) k) = ix1 k ∧ idx_main_v1 (ridx_main_v4 (ix2 r q) k) = ix1 k
    ∧ idx_main_v0 (ridx_main_v13 (ix2 r q) k) = ix1 k ∧ idx_main_v1 (ridx_main_v14 (ix2 r q) k) = ix1 k
    ∧ idx_main_v0 (ridx_main_v23 (ix2 r q) k) = ix1 k ∧ idx_main_v1 (ridx_main_v24 (ix2 r q) k) = ix1 k
    ∧ idx_main_v0 (ridx_main_v33 (ix2 r q) k) = ix1 k ∧ idx_main_v1 (ridx_main_v34 (ix2 r q) k) = ix1 k := by
  have hq : q.val = 0 := by have := q.isLt; omega
  refine ⟨?_, ?_, ?_, ?_, ?_, ?_, ?_, ?_⟩ <;>
    exact funext fun a => Fin.ext (by
      match a with
      | ⟨0, _⟩ => show k.val * 1 + q.val = k.val; omega)

/-- The input gate at [r, q]. -/
theorem gate_i (x0 x1 : (⟨S4096, .f32⟩ : BufTy).Contents (Elt Ideal)) (x3 x7 : (⟨S4096x4096, .f32⟩ : BufTy).Contents (Elt Ideal))
    (x11 : (⟨S4096x1, .f32⟩ : BufTy).Contents (Elt Ideal)) (r : Fin 4096) (q : Fin 1) :
    val_main_v12 (F := Ideal) x0 x1 x3 x7 x11 (ix2 r q) = Cell.gate x3 x7 x0 x1 x11 r := by
  obtain rfl : q = 0 := Fin.fin_one_eq_zero q
  rw [val_main_v12_apply, val_main_v11_apply, val_main_cst_0_apply, val_main_v10_apply, val_main_v9_apply, val_main_cst_apply,
    val_main_v8_apply, val_main_v7_apply, LibLogistic.hostSigmoid_eq_logistic, val_main_v6_apply, val_main_v5_apply,
    val_main_v3_apply, val_main_v4_apply]
  simp only [val_main_v0_apply, val_main_v1_apply, (lidx_eq r 0 _).1, (lidx_eq r 0 _).2.1, (col_eq r 0 _).1, (col_eq r 0 _).2.1]
  rfl

/-- The forget gate at [r, q]. -/
theorem gate_f (x0 x1 : (⟨S4096, .f32⟩ : BufTy).Contents (Elt Ideal)) (x4 x8 : (⟨S4096x4096, .f32⟩ : BufTy).Contents (Elt Ideal))
    (x12 : (⟨S4096x1, .f32⟩ : BufTy).Contents (Elt Ideal)) (r : Fin 4096) (q : Fin 1) :
    val_main_v22 (F := Ideal) x0 x1 x4 x8 x12 (ix2 r q) = Cell.gate x4 x8 x0 x1 x12 r := by
  obtain rfl : q = 0 := Fin.fin_one_eq_zero q
  rw [val_main_v22_apply, val_main_v21_apply, val_main_cst_2_apply, val_main_v20_apply, val_main_v19_apply, val_main_cst_1_apply,
    val_main_v18_apply, val_main_v17_apply, LibLogistic.hostSigmoid_eq_logistic, val_main_v16_apply, val_main_v15_apply,
    val_main_v13_apply, val_main_v14_apply]
  simp only [val_main_v0_apply, val_main_v1_apply, (lidx_eq r 0 _).2.2.1, (lidx_eq r 0 _).2.2.2.1, (col_eq r 0 _).2.2.1, (col_eq r 0 _).2.2.2.1]
  rfl

/-- The candidate gate at [r, q]. -/
theorem gate_g (x0 x1 : (⟨S4096, .f32⟩ : BufTy).Contents (Elt Ideal)) (x5 x9 : (⟨S4096x4096, .f32⟩ : BufTy).Contents (Elt Ideal))
    (x13 : (⟨S4096x1, .f32⟩ : BufTy).Contents (Elt Ideal)) (r : Fin 4096) (q : Fin 1) :
    val_main_v32 (F := Ideal) x0 x1 x5 x9 x13 (ix2 r q) = Cell.gate x5 x9 x0 x1 x13 r := by
  obtain rfl : q = 0 := Fin.fin_one_eq_zero q
  rw [val_main_v32_apply, val_main_v31_apply, val_main_cst_4_apply, val_main_v30_apply, val_main_v29_apply, val_main_cst_3_apply,
    val_main_v28_apply, val_main_v27_apply, LibLogistic.hostSigmoid_eq_logistic, val_main_v26_apply, val_main_v25_apply,
    val_main_v23_apply, val_main_v24_apply]
  simp only [val_main_v0_apply, val_main_v1_apply, (lidx_eq r 0 _).2.2.2.2.1, (lidx_eq r 0 _).2.2.2.2.2.1, (col_eq r 0 _).2.2.2.2.1, (col_eq r 0 _).2.2.2.2.2.1]
  rfl

/-- The output gate at [r, q]. -/
theorem gate_o (x0 x1 : (⟨S4096, .f32⟩ : BufTy).Contents (Elt Ideal)) (x6 x10 : (⟨S4096x4096, .f32⟩ : BufTy).Contents (Elt Ideal))
    (x14 : (⟨S4096x1, .f32⟩ : BufTy).Contents (Elt Ideal)) (r : Fin 4096) (q : Fin 1) :
    val_main_v42 (F := Ideal) x0 x1 x6 x10 x14 (ix2 r q) = Cell.gate x6 x10 x0 x1 x14 r := by
  obtain rfl : q = 0 := Fin.fin_one_eq_zero q
  rw [val_main_v42_apply, val_main_v41_apply, val_main_cst_6_apply, val_main_v40_apply, val_main_v39_apply, val_main_cst_5_apply,
    val_main_v38_apply, val_main_v37_apply, LibLogistic.hostSigmoid_eq_logistic, val_main_v36_apply, val_main_v35_apply,
    val_main_v33_apply, val_main_v34_apply]
  simp only [val_main_v0_apply, val_main_v1_apply, (lidx_eq r 0 _).2.2.2.2.2.2.1, (lidx_eq r 0 _).2.2.2.2.2.2.2, (col_eq r 0 _).2.2.2.2.2.2.1, (col_eq r 0 _).2.2.2.2.2.2.2]
  rfl

/-- THE CELL STATE the reference returns, read at [r, q], is `Cell.cellC` at row r. -/
theorem cell_c (x0 x1 x2 : (⟨S4096, .f32⟩ : BufTy).Contents (Elt Ideal)) (x3 x4 x5 x7 x8 x9 : (⟨S4096x4096, .f32⟩ : BufTy).Contents (Elt Ideal))
    (x11 x12 x13 : (⟨S4096x1, .f32⟩ : BufTy).Contents (Elt Ideal)) (r : Fin 4096) (q : Fin 1) :
    val_main_v45 (F := Ideal) x0 x1 x2 x3 x4 x5 x7 x8 x9 x11 x12 x13 (ix2 r q) = Cell.cellC x0 x1 x2 x3 x4 x5 x7 x8 x9 x11 x12 x13 r := by
  have e : idx_main_v2 (ix2 r q) = ix1 r := funext fun a => Fin.ext (by
    have hq : q.val = 0 := by have := q.isLt; omega
    match a with
    | ⟨0, _⟩ => show r.val * 1 + q.val = r.val; omega)
  rw [val_main_v45_apply, val_main_v43_apply, val_main_v44_apply, gate_f, gate_i, gate_g, val_main_v2_apply, e]
  rfl

/-- THE HIDDEN STATE the reference returns, read at [a, b, r], is `Cell.cellH` at row r. -/
theorem cell_h (x0 x1 x2 : (⟨S4096, .f32⟩ : BufTy).Contents (Elt Ideal)) (x3 x4 x5 x6 x7 x8 x9 x10 : (⟨S4096x4096, .f32⟩ : BufTy).Contents (Elt Ideal))
    (x11 x12 x13 x14 : (⟨S4096x1, .f32⟩ : BufTy).Contents (Elt Ideal)) (a b : Fin 1) (r : Fin 4096) :
    val_main_v48 (F := Ideal) x0 x1 x2 x3 x4 x5 x6 x7 x8 x9 x10 x11 x12 x13 x14 (ix3 a b r)
      = Cell.cellH x0 x1 x2 x3 x4 x5 x6 x7 x8 x9 x10 x11 x12 x13 x14 r := by
  have e : idx_main_v48 (ix3 a b r) = ix2 r (0 : Fin 1) := funext fun d => Fin.ext (by
    have ha : a.val = 0 := by have := a.isLt; omega
    have hb : b.val = 0 := by have := b.isLt; omega
    match d with
    | ⟨0, _⟩ => show ((a.val * 1 + b.val) * 4096 + r.val) / 1 = r.val; omega
    | ⟨1, _⟩ => rfl)
  rw [val_main_v48_apply, e, val_main_v47_apply, gate_o, val_main_v46_apply, cell_c]
  rfl

/-- THE HIDDEN-STATE ARRAY the reference returns is `Cell.laneH` of its arguments. -/
theorem v48_eq (x0 x1 x2 : (⟨S4096, .f32⟩ : BufTy).Contents (Elt Ideal)) (x3 x4 x5 x6 x7 x8 x9 x10 : (⟨S4096x4096, .f32⟩ : BufTy).Contents (Elt Ideal))
    (x11 x12 x13 x14 : (⟨S4096x1, .f32⟩ : BufTy).Contents (Elt Ideal)) :
    val_main_v48 (F := Ideal) x0 x1 x2 x3 x4 x5 x6 x7 x8 x9 x10 x11 x12 x13 x14 = Cell.laneH x0 x1 x2 x3 x4 x5 x6 x7 x8 x9 x10 x11 x12 x13 x14 := by
  funext i
  obtain ⟨a, b, r, rfl⟩ : ∃ (a b : Fin 1) (r : Fin 4096), i = ix3 a b r := ⟨i 0, i 1, i 2, eq_ix3 i⟩
  exact (cell_h x0 x1 x2 x3 x4 x5 x6 x7 x8 x9 x10 x11 x12 x13 x14 a b r).trans (Cell.laneH_apply x0 x1 x2 x3 x4 x5 x6 x7 x8 x9 x10 x11 x12 x13 x14 (ix3 a b r) r rfl).symm

/-- THE CELL-STATE COLUMN the reference returns is `Cell.colC` of its arguments. -/
theorem v45_eq (x0 x1 x2 : (⟨S4096, .f32⟩ : BufTy).Contents (Elt Ideal)) (x3 x4 x5 x7 x8 x9 : (⟨S4096x4096, .f32⟩ : BufTy).Contents (Elt Ideal))
    (x11 x12 x13 : (⟨S4096x1, .f32⟩ : BufTy).Contents (Elt Ideal)) :
    val_main_v45 (F := Ideal) x0 x1 x2 x3 x4 x5 x7 x8 x9 x11 x12 x13 = Cell.colC x0 x1 x2 x3 x4 x5 x7 x8 x9 x11 x12 x13 := by
  funext i
  obtain ⟨r, q, rfl⟩ : ∃ (r : Fin 4096) (q : Fin 1), i = ix2 r q := ⟨i 0, i 1, eq_ix2 i⟩
  exact (cell_c x0 x1 x2 x3 x4 x5 x7 x8 x9 x11 x12 x13 r q).trans (Cell.colC_apply x0 x1 x2 x3 x4 x5 x7 x8 x9 x11 x12 x13 (ix2 r q) r rfl).symm

end Cert.ReferenceIdeal.RefCell

end
-- ==== Proof.BodyCell.lean ====
/-
  The kernel body's arithmetic on one block of 128 rows is the cell of Cell.lean on that block.

  The body rounds each loaded weight block and the two columns to bf16 (no change on the extended reals), forms
  each gate's pre-activation as a [128, 4096] × [4096, 1] product into a zero accumulator for the input weights plus
  the same for the recurrent weights plus the bias block, applies the logistic function, combines the gates into
  the new cell state and hidden state, and re-lays each [128, 1] result as [1, 1, 128] by a transposition and a
  reshape. Read at an index: the product at [p, q] is the sum over k of W[p, k] · v[k, q]; the re-laid array at
  [0, 0, p] is the column at [p, 0].
-/
import proofs.«176720_j86380382257772_2_alg».proof.Proof.Gen.KernelIdeal.Skeleton
import proofs.«176720_j86380382257772_2_alg».proof.Proof.Cell
import Idealize.ShloMosaic.PureOps.Ideal.Laws
import Idealize.ShloMosaic.Lib.Pipeline.Value
import Idealize.ShloMosaic.Lib.ValueIdx

noncomputable section

namespace Cert.KernelIdeal.Body

open Cert.KernelIdeal Cert.KernelIdeal.Gen
open Idealize.ShloMosaic Idealize.ShloMosaic.ValueIdx

/-! ## A block of rows times a column -/

theorem lhs0 (i : S128x1.Idx) (s : dot_S128x4096_S4096x1_S128x1_1_0_0_1_n_n.contr.Idx) : (dot_S128x4096_S4096x1_S128x1_1_0_0_1_n_n.lhsIdx i s 0).val = (i 0).val := by
  unfold DotDims.lhsIdx
  rw [dif_neg (show ¬(0 : Fin S128x4096.rank) ∈ dot_S128x4096_S4096x1_S128x1_1_0_0_1_n_n.lhsBatch by decide), dif_pos (show (0 : Fin S128x4096.rank) ∈ dot_S128x4096_S4096x1_S128x1_1_0_0_1_n_n.lhsNonContracting by decide)]
  rfl

theorem rhs1 (i : S128x1.Idx) (s : dot_S128x4096_S4096x1_S128x1_1_0_0_1_n_n.contr.Idx) : (dot_S128x4096_S4096x1_S128x1_1_0_0_1_n_n.rhsIdx i s 1).val = (i 1).val := by
  unfold DotDims.rhsIdx
  rw [dif_neg (show ¬(1 : Fin S4096x1.rank) ∈ dot_S128x4096_S4096x1_S128x1_1_0_0_1_n_n.rhsBatch by decide), dif_pos (show (1 : Fin S4096x1.rank) ∈ dot_S128x4096_S4096x1_S128x1_1_0_0_1_n_n.rhsNonContracting by decide)]
  rfl

/-- The product of a [128, 4096] block with a [4096, 1] column into a zero accumulator, at [p, q], is the sum over
    the contracted axis k of W[p, k] · v[k, q]. -/
theorem matvec (W : FVec Ideal S128x4096 .bf16) (v : FVec Ideal S4096x1 .bf16) (p : Fin 128) (q : Fin 1) :
    matmul dot_S128x4096_S4096x1_S128x1_1_0_0_1_n_n none W v (constant (F := Ideal) S128x1 .f32 0x00000000#32) (ix2 p q) = ∑ k : Fin 4096, W (ix2 p k) * v (ix2 k q) := by
  refine (Ideal.matmul_constant_zero_apply dot_S128x4096_S4096x1_S128x1_1_0_0_1_n_n none W v (ix2 p q)).trans ?_
  rw [← Equiv.sum_comp (ValueIdx.contrEquiv1 dot_S128x4096_S4096x1_S128x1_1_0_0_1_n_n 4096 rfl rfl).symm]
  refine Finset.sum_congr rfl fun k _ => ?_
  have hk := ValueIdx.contrEquiv1_symm_val dot_S128x4096_S4096x1_S128x1_1_0_0_1_n_n 4096 rfl rfl k
  have el : dot_S128x4096_S4096x1_S128x1_1_0_0_1_n_n.lhsIdx (ix2 p q) ((ValueIdx.contrEquiv1 dot_S128x4096_S4096x1_S128x1_1_0_0_1_n_n 4096 rfl rfl).symm k) = ix2 p k := funext fun a => Fin.ext (by
    match a with
    | ⟨0, _⟩ => exact lhs0 _ _
    | ⟨1, _⟩ => exact (dot_S128x4096_S4096x1_S128x1_1_0_0_1_n_n.lhsIdx_val_of_single rfl (ix2 p q) _).trans hk)
  have er : dot_S128x4096_S4096x1_S128x1_1_0_0_1_n_n.rhsIdx (ix2 p q) ((ValueIdx.contrEquiv1 dot_S128x4096_S4096x1_S128x1_1_0_0_1_n_n 4096 rfl rfl).symm k) = ix2 k q := funext fun a => Fin.ext (by
    match a with
    | ⟨0, _⟩ => exact (dot_S128x4096_S4096x1_S128x1_1_0_0_1_n_n.rhsIdx_val_of_single rfl (ix2 p q) _).trans hk
    | ⟨1, _⟩ => exact rhs1 _ _)
  rw [el, er]

/-- One gate of the body at [p, q]: the logistic function of the two products' sum plus the bias, as `Cell.rowGate` of
    row p of the two weight blocks. -/
theorem gate_apply (W W' : FVec Ideal S128x4096 .bf16) (v v' : FVec Ideal S4096x1 .bf16) (b : FVec Ideal S128x1 .f32)
    (p : Fin 128) (q : Fin 1) :
    logistic (addf (addf (matmul dot_S128x4096_S4096x1_S128x1_1_0_0_1_n_n none W v (constant (F := Ideal) S128x1 .f32 0x00000000#32)) (matmul dot_S128x4096_S4096x1_S128x1_1_0_0_1_n_n none W' v' (constant (F := Ideal) S128x1 .f32 0x00000000#32))) b) (ix2 p q)
      = Cell.rowGate (fun k => W (ix2 p k)) (fun k => W' (ix2 p k)) (fun k => v (ix2 k q)) (fun k => v' (ix2 k q)) (b (ix2 p q)) := by
  show Ideal.logistic ((matmul dot_S128x4096_S4096x1_S128x1_1_0_0_1_n_n none W v (constant (F := Ideal) S128x1 .f32 0x00000000#32) (ix2 p q) + matmul dot_S128x4096_S4096x1_S128x1_1_0_0_1_n_n none W' v' (constant (F := Ideal) S128x1 .f32 0x00000000#32) (ix2 p q)) + b (ix2 p q)) = _
  rw [matvec, matvec]
  rfl

/-! ## The re-laying of a column as a [1, 1, 128] array -/

/-- A [128, 1] column transposed to [1, 128] and reshaped to [1, 1, 128], read at [a, b, p], is the column at [p, 0]. -/
theorem relay (v : FVec Ideal S128x1 .f32) (a b : Fin 1) (p : Fin 128) :
    shapeCast S1x1x128 (transpose S1x128 [1, 0] v transposes_S128x1_p1_0_S1x128) shapeCasts_S1x128_S1x1x128 (ix3 a b p)
      = v (ix2 p (0 : Fin 1)) := by
  refine (shapeCast_apply _ shapeCasts_S1x128_S1x1x128 (ix3 a b p) (ix2 (0 : Fin 1) p) ?_).trans ?_
  · rewrite [Shape.rowMajor_val_two, Shape.rowMajor_val_three]
    have ha : a.val = 0 := by have := a.isLt; omega
    have hb : b.val = 0 := by have := b.isLt; omega
    show 0 * 128 + p.val = (a.val * 1 + b.val) * 128 + p.val
    omega
  · exact transpose_apply [1, 0] v transposes_S128x1_p1_0_S1x128 (ix2 (0 : Fin 1) p) (ix2 p (0 : Fin 1))
      (fun d => by match d with | ⟨0, _⟩ => rfl | ⟨1, _⟩ => rfl)

/-! ## The payloads at an index -/

theorem pay4_apply (x0 : Vec Ideal S4096x1 .f32) (i : S4096x1.Idx) : k0_pay4 x0 i = x0 i := by
  unfold k0_pay4
  show shapeCast S4096x1 x0 shapeCasts_S4096x1_S4096x1 i = x0 i
  rw [shapeCast_self]

theorem pay5_apply (x1 : Vec Ideal S4096x1 .f32) (i : S4096x1.Idx) : k0_pay5 x1 i = x1 i := by
  unfold k0_pay5
  show shapeCast S4096x1 x1 shapeCasts_S4096x1_S4096x1 i = x1 i
  rw [shapeCast_self]

theorem pay6_apply (x2 : Vec Ideal S128x1 .f32) (i : S128x1.Idx) : k0_pay6 x2 i = x2 i := by
  unfold k0_pay6
  show shapeCast S128x1 x2 shapeCasts_S128x1_S128x1 i = x2 i
  rw [shapeCast_self]

/-- The input gate of the block, at row p. -/
theorem pay7_apply (x0 x1 : Vec Ideal S4096x1 .f32) (w w' : Vec Ideal S128x4096 .f32) (b : Vec Ideal S128x1 .f32) (p : Fin 128) :
    k0_pay7 x0 x1 w w' b (ix2 p (0 : Fin 1)) = Cell.blkGate w w' x0 x1 b p := by
  unfold k0_pay7
  refine (gate_apply (truncf .bf16 w bitsLt_bf16_f32) (truncf .bf16 w' bitsLt_bf16_f32) (k0_pay4 x0) (k0_pay5 x1) b p 0).trans ?_
  unfold Cell.blkGate
  simp only [pay4_apply, pay5_apply]
  rfl

/-- The forget gate of the block, at row p. -/
theorem pay8_apply (x0 x1 : Vec Ideal S4096x1 .f32) (w w' : Vec Ideal S128x4096 .f32) (b : Vec Ideal S128x1 .f32) (p : Fin 128) :
    k0_pay8 x0 x1 w w' b (ix2 p (0 : Fin 1)) = Cell.blkGate w w' x0 x1 b p := by
  unfold k0_pay8
  refine (gate_apply (truncf .bf16 w bitsLt_bf16_f32) (truncf .bf16 w' bitsLt_bf16_f32) (k0_pay4 x0) (k0_pay5 x1) b p 0).trans ?_
  unfold Cell.blkGate
  simp only [pay4_apply, pay5_apply]
  rfl

/-- The new cell state the body computes, at [p, q], from the gates and blocks it is handed. -/
theorem pay1_apply (v2 v5 : FVec Ideal S4096x1 .bf16) (v7 v17 v27 : FVec Ideal S128x1 .f32) (v29 v31 : FVec Ideal S128x4096 .bf16)
    (v35 : Vec Ideal S128x1 .f32) (p : Fin 128) (q : Fin 1) :
    k0_pay1 v2 v5 v7 v17 v27 v29 v31 (constant (F := Ideal) S128x1 .f32 0x00000000#32) v35 (ix2 p q)
      = v27 (ix2 p q) * v7 (ix2 p q) + v17 (ix2 p q)
          * Cell.rowGate (fun k => v29 (ix2 p k)) (fun k => v31 (ix2 p k)) (fun k => v2 (ix2 k q)) (fun k => v5 (ix2 k q)) (v35 (ix2 p q)) := by
  unfold k0_pay1
  show v27 (ix2 p q) * v7 (ix2 p q) + v17 (ix2 p q)
      * (logistic (addf (addf (matmul dot_S128x4096_S4096x1_S128x1_1_0_0_1_n_n none v29 v2 (constant (F := Ideal) S128x1 .f32 0x00000000#32)) (matmul dot_S128x4096_S4096x1_S128x1_1_0_0_1_n_n none v31 v5 (constant (F := Ideal) S128x1 .f32 0x00000000#32))) v35) (ix2 p q)) = _
  rw [gate_apply]

/-- THE CELL STATE of the block: the body's cell-state payload over the loaded blocks, at row p, is `Cell.blkC`. -/
theorem c_block (x0 x1 : Vec Ideal S4096x1 .f32) (x2 : Vec Ideal S128x1 .f32) (x3 x4 x5 x7 x8 x9 : Vec Ideal S128x4096 .f32)
    (x11 x12 x13 : Vec Ideal S128x1 .f32) (p : Fin 128) :
    k0_pay1 (k0_pay4 x0) (k0_pay5 x1) (k0_pay6 x2) (k0_pay7 x0 x1 x3 x7 x11) (k0_pay8 x0 x1 x4 x8 x12) (k0_pay9 x5) (k0_pay10 x9)
        (constant (F := Ideal) S128x1 .f32 0x00000000#32) x13 (ix2 p (0 : Fin 1))
      = Cell.blkC x0 x1 x2 x3 x4 x5 x7 x8 x9 x11 x12 x13 p := by
  rw [pay1_apply, pay7_apply, pay8_apply, pay6_apply]
  unfold Cell.blkC Cell.blkGate
  simp only [pay4_apply, pay5_apply]
  rfl

/-- The cell state re-laid: the payload stored to the cell-state output, at [a, b, p]. -/
theorem pay2_apply (v2 v5 : FVec Ideal S4096x1 .bf16) (v7 v17 v27 : FVec Ideal S128x1 .f32) (v29 v31 : FVec Ideal S128x4096 .bf16)
    (v35 : Vec Ideal S128x1 .f32) (a b : Fin 1) (p : Fin 128) :
    k0_pay2 v2 v5 v7 v17 v27 v29 v31 (constant (F := Ideal) S128x1 .f32 0x00000000#32) v35 (ix3 a b p) = k0_pay1 v2 v5 v7 v17 v27 v29 v31 (constant (F := Ideal) S128x1 .f32 0x00000000#32) v35 (ix2 p (0 : Fin 1)) := by
  unfold k0_pay2
  exact relay _ a b p

/-- The hidden state re-laid: the payload stored to the hidden-state output, at [a, b, p]. -/
theorem pay3_apply (v2 v5 : FVec Ideal S4096x1 .bf16) (v7 v17 v27 : FVec Ideal S128x1 .f32) (v29 v31 : FVec Ideal S128x4096 .bf16)
    (v35 : Vec Ideal S128x1 .f32) (v38 v40 : Vec Ideal S128x4096 .f32) (v45 : Vec Ideal S128x1 .f32) (a b : Fin 1) (p : Fin 128) :
    k0_pay3 v2 v5 v7 v17 v27 v29 v31 (constant (F := Ideal) S128x1 .f32 0x00000000#32) v35 v38 v40 v45 (ix3 a b p)
      = Cell.rowGate (fun k => v38 (ix2 p k)) (fun k => v40 (ix2 p k)) (fun k => v2 (ix2 k (0 : Fin 1))) (fun k => v5 (ix2 k (0 : Fin 1)))
            (v45 (ix2 p (0 : Fin 1)))
          * Ideal.tanh (k0_pay1 v2 v5 v7 v17 v27 v29 v31 (constant (F := Ideal) S128x1 .f32 0x00000000#32) v35 (ix2 p (0 : Fin 1))) := by
  unfold k0_pay3
  refine (relay _ a b p).trans ?_
  show (logistic (addf (addf (matmul dot_S128x4096_S4096x1_S128x1_1_0_0_1_n_n none (truncf .bf16 v38 bitsLt_bf16_f32) v2 (constant (F := Ideal) S128x1 .f32 0x00000000#32))
        (matmul dot_S128x4096_S4096x1_S128x1_1_0_0_1_n_n none (truncf .bf16 v40 bitsLt_bf16_f32) v5 (constant (F := Ideal) S128x1 .f32 0x00000000#32))) v45) (ix2 p (0 : Fin 1)))
      * Ideal.tanh (k0_pay1 v2 v5 v7 v17 v27 v29 v31 (constant (F := Ideal) S128x1 .f32 0x00000000#32) v35 (ix2 p (0 : Fin 1))) = _
  rw [gate_apply]
  rfl

/-- THE STORED CELL STATE of the block, at [a, b, p], is `Cell.blkC` at row p. -/
theorem c_store (x0 x1 : Vec Ideal S4096x1 .f32) (x2 : Vec Ideal S128x1 .f32) (x3 x4 x5 x7 x8 x9 : Vec Ideal S128x4096 .f32)
    (x11 x12 x13 : Vec Ideal S128x1 .f32) (a b : Fin 1) (p : Fin 128) :
    k0_pay2 (k0_pay4 x0) (k0_pay5 x1) (k0_pay6 x2) (k0_pay7 x0 x1 x3 x7 x11) (k0_pay8 x0 x1 x4 x8 x12) (k0_pay9 x5) (k0_pay10 x9)
        (constant (F := Ideal) S128x1 .f32 0x00000000#32) x13 (ix3 a b p)
      = Cell.blkC x0 x1 x2 x3 x4 x5 x7 x8 x9 x11 x12 x13 p := by
  rw [pay2_apply, c_block]

/-- THE STORED HIDDEN STATE of the block, at [a, b, p], is `Cell.blkH` at row p. -/
theorem h_store (x0 x1 : Vec Ideal S4096x1 .f32) (x2 : Vec Ideal S128x1 .f32) (x3 x4 x5 x6 x7 x8 x9 x10 : Vec Ideal S128x4096 .f32)
    (x11 x12 x13 x14 : Vec Ideal S128x1 .f32) (a b : Fin 1) (p : Fin 128) :
    k0_pay3 (k0_pay4 x0) (k0_pay5 x1) (k0_pay6 x2) (k0_pay7 x0 x1 x3 x7 x11) (k0_pay8 x0 x1 x4 x8 x12) (k0_pay9 x5) (k0_pay10 x9)
        (constant (F := Ideal) S128x1 .f32 0x00000000#32) x13 x6 x10 x14 (ix3 a b p)
      = Cell.blkH x0 x1 x2 x3 x4 x5 x6 x7 x8 x9 x10 x11 x12 x13 x14 p := by
  rw [pay3_apply, c_block]
  unfold Cell.blkH Cell.blkGate
  simp only [pay4_apply, pay5_apply]

end Cert.KernelIdeal.Body

end
-- ==== Proof.CellArrays.lean ====
/-
  What the kernel's two output arrays, and the column it reshapes the second one to, hold after the run.

  The grid has 32 points. At point t each weight matrix's window holds rows 128 t … 128 t + 127, each bias column's
  and the old cell state's window the same 128 entries, the windows of x and h the whole columns; the two output
  windows hold lanes 128 t … 128 t + 127 of a [1, 1, 4096] array. So what point t writes back is block t of ONE
  function of the argument arrays — `Cell.laneH` for the first output, `Cell.laneC` for the second —, the 32 blocks
  cover the 4096 lanes, and the arrays end holding those functions. After the region the second output is
  reshaped to a [4096, 1] column, which therefore holds `Cell.colC`.
-/
import proofs.«176720_j86380382257772_2_alg».proof.Proof.Gen.KernelIdeal.Frame
import proofs.«176720_j86380382257772_2_alg».proof.Proof.BodyCell
import proofs.«176720_j86380382257772_2_alg».proof.Proof.Cell
import Idealize.ShloMosaic.Lib.Pipeline.Value
import Idealize.ShloMosaic.Lib.StableHlo.Run
import Idealize.ShloMosaic.Lib.Tactic

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays, as the cell's vectors, matrices and columns -/

abbrev A0 (c : Dev nD) : Cell.Vec1 := m ((c : Thread nD τ).loc main_arg0)
abbrev A1 (c : Dev nD) : Cell.Vec1 := m ((c : Thread nD τ).loc main_arg1)
abbrev A2 (c : Dev nD) : Cell.Vec1 := m ((c : Thread nD τ).loc main_arg2)
abbrev A3 (c : Dev nD) : Cell.Mat := m ((c : Thread nD τ).loc main_arg3)
abbrev A4 (c : Dev nD) : Cell.Mat := m ((c : Thread nD τ).loc main_arg4)
abbrev A5 (c : Dev nD) : Cell.Mat := m ((c : Thread nD τ).loc main_arg5)
abbrev A6 (c : Dev nD) : Cell.Mat := m ((c : Thread nD τ).loc main_arg6)
abbrev A7 (c : Dev nD) : Cell.Mat := m ((c : Thread nD τ).loc main_arg7)
abbrev A8 (c : Dev nD) : Cell.Mat := m ((c : Thread nD τ).loc main_arg8)
abbrev A9 (c : Dev nD) : Cell.Mat := m ((c : Thread nD τ).loc main_arg9)
abbrev A10 (c : Dev nD) : Cell.Mat := m ((c : Thread nD τ).loc main_arg10)
abbrev A11 (c : Dev nD) : Cell.Col := m ((c : Thread nD τ).loc main_arg11)
abbrev A12 (c : Dev nD) : Cell.Col := m ((c : Thread nD τ).loc main_arg12)
abbrev A13 (c : Dev nD) : Cell.Col := m ((c : Thread nD τ).loc main_arg13)
abbrev A14 (c : Dev nD) : Cell.Col := m ((c : Thread nD τ).loc main_arg14)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 32 points. -/
theorem N32 : cfg0.N = 32 := N_0

/-! ## Where each window's block sits at point t -/

/-- The printed index maps, decided once over the 32 points: the windows of x and h stay at block 0; every row-tiled
    window is at row block t; the two outputs are at lane block t. -/
theorem idx_facts : ∀ t : Fin cfg0.N,
    win0_0.index t (0 : Fin 2) = 0
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0
    ∧ win0_13.index t (0 : Fin 2) = t.val
    ∧ win0_13.index t (1 : Fin 2) = 0
    ∧ win0_14.index t (0 : Fin 2) = t.val
    ∧ win0_14.index t (1 : Fin 2) = 0
    ∧ win0_15.index t (0 : Fin 3) = 0
    ∧ win0_15.index t (1 : Fin 3) = 0
    ∧ win0_15.index t (2 : Fin 3) = t.val
    ∧ win0_16.index t (0 : Fin 3) = 0
    ∧ win0_16.index t (1 : Fin 3) = 0
    ∧ win0_16.index t (2 : Fin 3) = t.val :=
  (by decide +kernel : ∀ t : Fin grid0.N, _)

/-! ## The blocks the body loads, as entries of the argument arrays -/

/-- Before the region the program reshapes argument 0 to a column; the region finds that column. -/
theorem V_v0 (c : Dev nD) : (V m c main_v0 : S4096x1.Idx → EReal) = shapeCast S4096x1 (A0 m c) shapeCasts_S4096_S4096x1 := by
  show StableHlo.after hostOps0 (fun b => m (c, b)) (Proc.devRef .tc main_v0) = _
  after_results
  rfl

/-- Before the region the program reshapes argument 1 to a column; the region finds that column. -/
theorem V_v1 (c : Dev nD) : (V m c main_v1 : S4096x1.Idx → EReal) = shapeCast S4096x1 (A1 m c) shapeCasts_S4096_S4096x1 := by
  show StableHlo.after hostOps0 (fun b => m (c, b)) (Proc.devRef .tc main_v1) = _
  after_results
  rfl

/-- Before the region the program reshapes argument 2 to a column; the region finds that column. -/
theorem V_v2 (c : Dev nD) : (V m c main_v2 : S4096x1.Idx → EReal) = shapeCast S4096x1 (A2 m c) shapeCasts_S4096_S4096x1 := by
  show StableHlo.after hostOps0 (fun b => m (c, b)) (Proc.devRef .tc main_v2) = _
  after_results
  rfl

/-- The window of x holds the whole column at every point: its entry k is entry k of the first argument. -/
theorem blk0 (c : Dev nD) (t : Fin cfg0.N) (k : Fin 4096) :
    (iblk m c 0 t : Vec Ideal S4096x1 .f32) (ix2 k (0 : Fin 1)) = A0 m c (ix1 k) := by
  have h0 : win0_0.index t (0 : Fin 2) = 0 := (idx_facts t).1
  have h1 : win0_0.index t (1 : Fin 2) = 0 := (idx_facts t).2.1
  unfold iblk
  rw [View.read_apply]
  show (V m c main_v0 : S4096x1.Idx → EReal) _ = _
  rw [V_v0]
  refine shapeCast_apply (A0 m c) shapeCasts_S4096_S4096x1 _ (ix1 k) ?_
  rewrite [Shape.rowMajor_val_one, Shape.rowMajor_val_two]
  show k.val = (win0_0.index t (0 : Fin 2) * 4096 + 1 * k.val) * 1 + (win0_0.index t (1 : Fin 2) * 1 + 1 * 0)
  omega

/-- The window of h holds the whole column at every point: its entry k is entry k of the second argument. -/
theorem blk1 (c : Dev nD) (t : Fin cfg0.N) (k : Fin 4096) :
    (iblk m c 1 t : Vec Ideal S4096x1 .f32) (ix2 k (0 : Fin 1)) = A1 m c (ix1 k) := by
  have h0 : win0_1.index t (0 : Fin 2) = 0 := (idx_facts t).2.2.1
  have h1 : win0_1.index t (1 : Fin 2) = 0 := (idx_facts t).2.2.2.1
  unfold iblk
  rw [View.read_apply]
  show (V m c main_v1 : S4096x1.Idx → EReal) _ = _
  rw [V_v1]
  refine shapeCast_apply (A1 m c) shapeCasts_S4096_S4096x1 _ (ix1 k) ?_
  rewrite [Shape.rowMajor_val_one, Shape.rowMajor_val_two]
  show k.val = (win0_1.index t (0 : Fin 2) * 4096 + 1 * k.val) * 1 + (win0_1.index t (1 : Fin 2) * 1 + 1 * 0)
  omega

/-- The old cell state's window at point t holds entries 128 t … 128 t + 127 of the third argument. -/
theorem blk2 (c : Dev nD) (t : Fin cfg0.N) (p : Fin 128) (r : Fin 4096) (hr : r.val = 128 * t.val + p.val) :
    (iblk m c 2 t : Vec Ideal S128x1 .f32) (ix2 p (0 : Fin 1)) = A2 m c (ix1 r) := by
  have h0 : win0_2.index t (0 : Fin 2) = t.val := (idx_facts t).2.2.2.2.1
  have h1 : win0_2.index t (1 : Fin 2) = 0 := (idx_facts t).2.2.2.2.2.1
  unfold iblk
  rw [View.read_apply]
  show (V m c main_v2 : S4096x1.Idx → EReal) _ = _
  rw [V_v2]
  refine shapeCast_apply (A2 m c) shapeCasts_S4096_S4096x1 _ (ix1 r) ?_
  rewrite [Shape.rowMajor_val_one, Shape.rowMajor_val_two]
  show r.val = (win0_2.index t (0 : Fin 2) * 128 + 1 * p.val) * 1 + (win0_2.index t (1 : Fin 2) * 1 + 1 * 0)
  omega

/-- Window 3's block at point t is rows 128 t … 128 t + 127 of argument 3. -/
theorem blk3 (c : Dev nD) (t : Fin cfg0.N) (p : Fin 128) (k : Fin 4096) (r : Fin 4096) (hr : r.val = 128 * t.val + p.val) :
    (iblk m c 3 t : Vec Ideal S128x4096 .f32) (ix2 p k) = A3 m c (ix2 r k) := by
  have h0 : win0_3.index t (0 : Fin 2) = t.val := (idx_facts t).2.2.2.2.2.2.1
  have h1 : win0_3.index t (1 : Fin 2) = 0 := (idx_facts t).2.2.2.2.2.2.2.1
  unfold iblk
  rw [View.read_apply]
  show V m c main_arg3 _ = _
  rw [V_main_arg3]
  refine congrArg (A3 m c) (funext fun a => Fin.ext ?_)
  match a with
  | ⟨0, _⟩ => show win0_3.index t (0 : Fin 2) * 128 + 1 * p.val = r.val; omega
  | ⟨1, _⟩ => show win0_3.index t (1 : Fin 2) * 4096 + 1 * k.val = k.val; omega

/-- Window 4's block at point t is rows 128 t … 128 t + 127 of argument 4. -/
theorem blk4 (c : Dev nD) (t : Fin cfg0.N) (p : Fin 128) (k : Fin 4096) (r : Fin 4096) (hr : r.val = 128 * t.val + p.val) :
    (iblk m c 4 t : Vec Ideal S128x4096 .f32) (ix2 p k) = A4 m c (ix2 r k) := by
  have h0 : win0_4.index t (0 : Fin 2) = t.val := (idx_facts t).2.2.2.2.2.2.2.2.1
  have h1 : win0_4.index t (1 : Fin 2) = 0 := (idx_facts t).2.2.2.2.2.2.2.2.2.1
  unfold iblk
  rw [View.read_apply]
  show V m c main_arg4 _ = _
  rw [V_main_arg4]
  refine congrArg (A4 m c) (funext fun a => Fin.ext ?_)
  match a with
  | ⟨0, _⟩ => show win0_4.index t (0 : Fin 2) * 128 + 1 * p.val = r.val; omega
  | ⟨1, _⟩ => show win0_4.index t (1 : Fin 2) * 4096 + 1 * k.val = k.val; omega

/-- Window 5's block at point t is rows 128 t … 128 t + 127 of argument 5. -/
theorem blk5 (c : Dev nD) (t : Fin cfg0.N) (p : Fin 128) (k : Fin 4096) (r : Fin 4096) (hr : r.val = 128 * t.val + p.val) :
    (iblk m c 5 t : Vec Ideal S128x4096 .f32) (ix2 p k) = A5 m c (ix2 r k) := by
  have h0 : win0_5.index t (0 : Fin 2) = t.val := (idx_facts t).2.2.2.2.2.2.2.2.2.2.1
  have h1 : win0_5.index t (1 : Fin 2) = 0 := (idx_facts t).2.2.2.2.2.2.2.2.2.2.2.1
  unfold iblk
  rw [View.read_apply]
  show V m c main_arg5 _ = _
  rw [V_main_arg5]
  refine congrArg (A5 m c) (funext fun a => Fin.ext ?_)
  match a with
  | ⟨0, _⟩ => show win0_5.index t (0 : Fin 2) * 128 + 1 * p.val = r.val; omega
  | ⟨1, _⟩ => show win0_5.index t (1 : Fin 2) * 4096 + 1 * k.val = k.val; omega

/-- Window 6's block at point t is rows 128 t … 128 t + 127 of argument 6. -/
theorem blk6 (c : Dev nD) (t : Fin cfg0.N) (p : Fin 128) (k : Fin 4096) (r : Fin 4096) (hr : r.val = 128 * t.val + p.val) :
    (iblk m c 6 t : Vec Ideal S128x4096 .f32) (ix2 p k) = A6 m c (ix2 r k) := by
  have h0 : win0_6.index t (0 : Fin 2) = t.val := (idx_facts t).2.2.2.2.2.2.2.2.2.2.2.2.1
  have h1 : win0_6.index t (1 : Fin 2) = 0 := (idx_facts t).2.2.2.2.2.2.2.2.2.2.2.2.2.1
  unfold iblk
  rw [View.read_apply]
  show V m c main_arg6 _ = _
  rw [V_main_arg6]
  refine congrArg (A6 m c) (funext fun a => Fin.ext ?_)
  match a with
  | ⟨0, _⟩ => show win0_6.index t (0 : Fin 2) * 128 + 1 * p.val = r.val; omega
  | ⟨1, _⟩ => show win0_6.index t (1 : Fin 2) * 4096 + 1 * k.val = k.val; omega

/-- Window 7's block at point t is rows 128 t … 128 t + 127 of argument 7. -/
theorem blk7 (c : Dev nD) (t : Fin cfg0.N) (p : Fin 128) (k : Fin 4096) (r : Fin 4096) (hr : r.val = 128 * t.val + p.val) :
    (iblk m c 7 t : Vec Ideal S128x4096 .f32) (ix2 p k) = A7 m c (ix2 r k) := by
  have h0 : win0_7.index t (0 : Fin 2) = t.val := (idx_facts t).2.2.2.2.2.2.2.2.2.2.2.2.2.2.1
  have h1 : win0_7.index t (1 : Fin 2) = 0 := (idx_facts t).2.2.2.2.2.2.2.2.2.2.2.2.2.2.2.1
  unfold iblk
  rw [View.read_apply]
  show V m c main_arg7 _ = _
  rw [V_main_arg7]
  refine congrArg (A7 m c) (funext fun a => Fin.ext ?_)
  match a with
  | ⟨0, _⟩ => show win0_7.index t (0 : Fin 2) * 128 + 1 * p.val = r.val; omega
  | ⟨1, _⟩ => show win0_7.index t (1 : Fin 2) * 4096 + 1 * k.val = k.val; omega

/-- Window 8's block at point t is rows 128 t … 128 t + 127 of argument 8. -/
theorem blk8 (c : Dev nD) (t : Fin cfg0.N) (p : Fin 128) (k : Fin 4096) (r : Fin 4096) (hr : r.val = 128 * t.val + p.val) :
    (iblk m c 8 t : Vec Ideal S128x4096 .f32) (ix2 p k) = A8 m c (ix2 r k) := by
  have h0 : win0_8.index t (0 : Fin 2) = t.val := (idx_facts t).2.2.2.2.2.2.2.2.2.2.2.2.2.2.2.2.1
  have h1 : win0_8.index t (1 : Fin 2) = 0 := (idx_facts t).2.2.2.2.2.2.2.2.2.2.2.2.2.2.2.2.2.1
  unfold iblk
  rw [View.read_apply]
  show V m c main_arg8 _ = _
  rw [V_main_arg8]
  refine congrArg (A8 m c) (funext fun a => Fin.ext ?_)
  match a with
  | ⟨0, _⟩ => show win0_8.index t (0 : Fin 2) * 128 + 1 * p.val = r.val; omega
  | ⟨1, _⟩ => show win0_8.index t (1 : Fin 2) * 4096 + 1 * k.val = k.val; omega

/-- Window 9's block at point t is rows 128 t … 128 t + 127 of argument 9. -/
theorem blk9 (c : Dev nD) (t : Fin cfg0.N) (p : Fin 128) (k : Fin 4096) (r : Fin 4096) (hr : r.val = 128 * t.val + p.val) :
    (iblk m c 9 t : Vec Ideal S128x4096 .f32) (ix2 p k) = A9 m c (ix2 r k) := by
  have h0 : win0_9.index t (0 : Fin 2) = t.val := (idx_facts t).2.2.2.2.2.2.2.2.2.2.2.2.2.2.2.2.2.2.1
  have h1 : win0_9.index t (1 : Fin 2) = 0 := (idx_facts t).2.2.2.2.2.2.2.2.2.2.2.2.2.2.2.2.2.2.2.1
  unfold iblk
  rw [View.read_apply]
  show V m c main_arg9 _ = _
  rw [V_main_arg9]
  refine congrArg (A9 m c) (funext fun a => Fin.ext ?_)
  match a with
  | ⟨0, _⟩ => show win0_9.index t (0 : Fin 2) * 128 + 1 * p.val = r.val; omega
  | ⟨1, _⟩ => show win0_9.index t (1 : Fin 2) * 4096 + 1 * k.val = k.val; omega

/-- Window 10's block at point t is rows 128 t … 128 t + 127 of argument 10. -/
theorem blk10 (c : Dev nD) (t : Fin cfg0.N) (p : Fin 128) (k : Fin 4096) (r : Fin 4096) (hr : r.val = 128 * t.val + p.val) :
    (iblk m c 10 t : Vec Ideal S128x4096 .f32) (ix2 p k) = A10 m c (ix2 r k) := by
  have h0 : win0_10.index t (0 : Fin 2) = t.val := (idx_facts t).2.2.2.2.2.2.2.2.2.2.2.2.2.2.2.2.2.2.2.2.1
  have h1 : win0_10.index t (1 : Fin 2) = 0 := (idx_facts t).2.2.2.2.2.2.2.2.2.2.2.2.2.2.2.2.2.2.2.2.2.1
  unfold iblk
  rw [View.read_apply]
  show V m c main_arg10 _ = _
  rw [V_main_arg10]
  refine congrArg (A10 m c) (funext fun a => Fin.ext ?_)
  match a with
  | ⟨0, _⟩ => show win0_10.index t (0 : Fin 2) * 128 + 1 * p.val = r.val; omega
  | ⟨1, _⟩ => show win0_10.index t (1 : Fin 2) * 4096 + 1 * k.val = k.val; omega

/-- Window 11's block at point t is entries 128 t … 128 t + 127 of argument 11. -/
theorem blk11 (c : Dev nD) (t : Fin cfg0.N) (p : Fin 128) (r : Fin 4096) (hr : r.val = 128 * t.val + p.val) :
    (iblk m c 11 t : Vec Ideal S128x1 .f32) (ix2 p (0 : Fin 1)) = A11 m c (ix2 r (0 : Fin 1)) := by
  have h0 : win0_11.index t (0 : Fin 2) = t.val := (idx_facts t).2.2.2.2.2.2.2.2.2.2.2.2.2.2.2.2.2.2.2.2.2.2.1
  have h1 : win0_11.index t (1 : Fin 2) = 0 := (idx_facts t).2.2.2.2.2.2.2.2.2.2.2.2.2.2.2.2.2.2.2.2.2.2.2.1
  unfold iblk
  rw [View.read_apply]
  show V m c main_arg11 _ = _
  rw [V_main_arg11]
  refine congrArg (A11 m c) (funext fun a => Fin.ext ?_)
  match a with
  | ⟨0, _⟩ => show win0_11.index t (0 : Fin 2) * 128 + 1 * p.val = r.val; omega
  | ⟨1, _⟩ => show win0_11.index t (1 : Fin 2) * 1 + 1 * 0 = 0; omega

/-- Window 12's block at point t is entries 128 t … 128 t + 127 of argument 12. -/
theorem blk12 (c : Dev nD) (t : Fin cfg0.N) (p : Fin 128) (r : Fin 4096) (hr : r.val = 128 * t.val + p.val) :
    (iblk m c 12 t : Vec Ideal S128x1 .f32) (ix2 p (0 : Fin 1)) = A12 m c (ix2 r (0 : Fin 1)) := by
  have h0 : win0_12.index t (0 : Fin 2) = t.val := (idx_facts t).2.2.2.2.2.2.2.2.2.2.2.2.2.2.2.2.2.2.2.2.2.2.2.2.1
  have h1 : win0_12.index t (1 : Fin 2) = 0 := (idx_facts t).2.2.2.2.2.2.2.2.2.2.2.2.2.2.2.2.2.2.2.2.2.2.2.2.2.1
  unfold iblk
  rw [View.read_apply]
  show V m c main_arg12 _ = _
  rw [V_main_arg12]
  refine congrArg (A12 m c) (funext fun a => Fin.ext ?_)
  match a with
  | ⟨0, _⟩ => show win0_12.index t (0 : Fin 2) * 128 + 1 * p.val = r.val; omega
  | ⟨1, _⟩ => show win0_12.index t (1 : Fin 2) * 1 + 1 * 0 = 0; omega

/-- Window 13's block at point t is entries 128 t … 128 t + 127 of argument 13. -/
theorem blk13 (c : Dev nD) (t : Fin cfg0.N) (p : Fin 128) (r : Fin 4096) (hr : r.val = 128 * t.val + p.val) :
    (iblk m c 13 t : Vec Ideal S128x1 .f32) (ix2 p (0 : Fin 1)) = A13 m c (ix2 r (0 : Fin 1)) := by
  have h0 : win0_13.index t (0 : Fin 2) = t.val := (idx_facts t).2.2.2.2.2.2.2.2.2.2.2.2.2.2.2.2.2.2.2.2.2.2.2.2.2.2.1
  have h1 : win0_13.index t (1 : Fin 2) = 0 := (idx_facts t).2.2.2.2.2.2.2.2.2.2.2.2.2.2.2.2.2.2.2.2.2.2.2.2.2.2.2.1
  unfold iblk
  rw [View.read_apply]
  show V m c main_arg13 _ = _
  rw [V_main_arg13]
  refine congrArg (A13 m c) (funext fun a => Fin.ext ?_)
  match a with
  | ⟨0, _⟩ => show win0_13.index t (0 : Fin 2) * 128 + 1 * p.val = r.val; omega
  | ⟨1, _⟩ => show win0_13.index t (1 : Fin 2) * 1 + 1 * 0 = 0; omega

/-- Window 14's block at point t is entries 128 t … 128 t + 127 of argument 14. -/
theorem blk14 (c : Dev nD) (t : Fin cfg0.N) (p : Fin 128) (r : Fin 4096) (hr : r.val = 128 * t.val + p.val) :
    (iblk m c 14 t : Vec Ideal S128x1 .f32) (ix2 p (0 : Fin 1)) = A14 m c (ix2 r (0 : Fin 1)) := by
  have h0 : win0_14.index t (0 : Fin 2) = t.val := (idx_facts t).2.2.2.2.2.2.2.2.2.2.2.2.2.2.2.2.2.2.2.2.2.2.2.2.2.2.2.2.1
  have h1 : win0_14.index t (1 : Fin 2) = 0 := (idx_facts t).2.2.2.2.2.2.2.2.2.2.2.2.2.2.2.2.2.2.2.2.2.2.2.2.2.2.2.2.2.1
  unfold iblk
  rw [View.read_apply]
  show V m c main_arg14 _ = _
  rw [V_main_arg14]
  refine congrArg (A14 m c) (funext fun a => Fin.ext ?_)
  match a with
  | ⟨0, _⟩ => show win0_14.index t (0 : Fin 2) * 128 + 1 * p.val = r.val; omega
  | ⟨1, _⟩ => show win0_14.index t (1 : Fin 2) * 1 + 1 * 0 = 0; omega

/-! ## The four gates of a block, as the arrays' gates -/

/-- At point t, row p of the blocks is row r = 128 t + p of the arrays: each block gate is the arrays' gate at row r. -/
theorem gates (c : Dev nD) (t : Fin cfg0.N) (p : Fin 128) (r : Fin 4096) (hr : r.val = 128 * t.val + p.val) :
    Cell.blkGate (iblk m c 3 t) (iblk m c 7 t) (iblk m c 0 t) (iblk m c 1 t) (iblk m c 11 t) p = Cell.gate (A3 m c) (A7 m c) (A0 m c) (A1 m c) (A11 m c) r
    ∧ Cell.blkGate (iblk m c 4 t) (iblk m c 8 t) (iblk m c 0 t) (iblk m c 1 t) (iblk m c 12 t) p = Cell.gate (A4 m c) (A8 m c) (A0 m c) (A1 m c) (A12 m c) r
    ∧ Cell.blkGate (iblk m c 5 t) (iblk m c 9 t) (iblk m c 0 t) (iblk m c 1 t) (iblk m c 13 t) p = Cell.gate (A5 m c) (A9 m c) (A0 m c) (A1 m c) (A13 m c) r
    ∧ Cell.blkGate (iblk m c 6 t) (iblk m c 10 t) (iblk m c 0 t) (iblk m c 1 t) (iblk m c 14 t) p = Cell.gate (A6 m c) (A10 m c) (A0 m c) (A1 m c) (A14 m c) r :=
  ⟨Cell.blkGate_eq (fun k => blk3 m c t p k r hr) (fun k => blk7 m c t p k r hr) (fun k => blk0 m c t k) (fun k => blk1 m c t k) (blk11 m c t p r hr),
   Cell.blkGate_eq (fun k => blk4 m c t p k r hr) (fun k => blk8 m c t p k r hr) (fun k => blk0 m c t k) (fun k => blk1 m c t k) (blk12 m c t p r hr),
   Cell.blkGate_eq (fun k => blk5 m c t p k r hr) (fun k => blk9 m c t p k r hr) (fun k => blk0 m c t k) (fun k => blk1 m c t k) (blk13 m c t p r hr),
   Cell.blkGate_eq (fun k => blk6 m c t p k r hr) (fun k => blk10 m c t p k r hr) (fun k => blk0 m c t k) (fun k => blk1 m c t k) (blk14 m c t p r hr)⟩

/-! ## What each point writes back, and the arrays after the run -/

/-- Lane p of output window 16's block at point t is lane 128 t + p of its array. -/
theorem lane16 (t : Fin cfg0.N) (a b : Fin 1) (p : Fin 128) :
    ((((cfg0.win 16).blk t).view.emb (ix3 a b p)) (2 : Fin 3)).val = 128 * t.val + p.val := by
  have e2 : win0_16.index t (2 : Fin 3) = t.val := (idx_facts t).2.2.2.2.2.2.2.2.2.2.2.2.2.2.2.2.2.2.2.2.2.2.2.2.2.2.2.2.2.2.2.2.2.2.2
  show win0_16.index t (2 : Fin 3) * 128 + 1 * p.val = _
  omega

/-- WHAT POINT t WRITES BACK through output window 16 is block t of `Cell.laneC` of the argument arrays. -/
theorem flushed16 (c : Dev nD) (t : Fin cfg0.N) :
    (dats m 0 c).flushed 16 t = ((cfg0.win 16).blk t).view.read (Elt Ideal) (Cell.laneC (A0 m c) (A1 m c) (A2 m c) (A3 m c) (A4 m c) (A5 m c) (A7 m c) (A8 m c) (A9 m c) (A11 m c) (A12 m c) (A13 m c)) := by
  have ht : t.val < 32 := lt_of_lt_of_eq t.isLt N32
  show (cfg0.win 16).cut (grid0.coords t) ((dats m 0 c).after 16 t) = _
  rw [after0_16]
  unfold out0_16
  rw [View.canon_unit_zero hz3]
  simp only [View.ld_unit_zero (S := S4096x1) hz2, View.ld_unit_zero (S := S128x1) hz2, View.ld_unit_zero (S := S128x4096) hz2]
  funext j
  obtain ⟨a, b, p, rfl⟩ : ∃ (a b : Fin 1) (p : Fin 128), j = ix3 a b p := ⟨j 0, j 1, j 2, eq_ix3 j⟩
  have hp : p.val < 128 := p.isLt
  obtain ⟨r, hr⟩ : ∃ r : Fin 4096, r.val = 128 * t.val + p.val := ⟨⟨128 * t.val + p.val, by omega⟩, rfl⟩
  obtain ⟨hi, hf, hg, ho⟩ := gates m c t p r hr
  rw [View.read_apply]
  refine (Body.c_store (iblk m c 0 t) (iblk m c 1 t) (iblk m c 2 t) (iblk m c 3 t) (iblk m c 4 t) (iblk m c 5 t) (iblk m c 7 t) (iblk m c 8 t) (iblk m c 9 t) (iblk m c 11 t) (iblk m c 12 t) (iblk m c 13 t) a b p).trans ?_
  refine (Cell.blkC_eq hi hf hg (blk2 m c t p r hr)).trans ?_
  exact (Cell.laneC_apply _ _ _ _ _ _ _ _ _ _ _ _ _ r ((lane16 t a b p).trans hr.symm)).symm

/-- An index of the array is in point t's block iff each coordinate is in the block's range on its axis. -/
theorem mem_blk16 (t : Fin cfg0.N) (i : S1x1x4096.Idx) :
    i ∈ ((cfg0.win 16).blk t).view.set ↔ ∀ a : Fin 3, win0_16.index t a * S1x1x128.size a ≤ (i a).val ∧ (i a).val < win0_16.index t a * S1x1x128.size a + S1x1x128.size a := by
  show i ∈ ((View.whole main_v3_1).slice (win0_16.rect t)).set ↔ _
  rw [View.set_slice_whole, Rect.mem_set_unit]
  exact Iff.rfl

/-- Every lane is in some point's block: lane l in the block of point l / 128. -/
theorem cover16 (i : S1x1x4096.Idx) : ∃ t : Fin cfg0.N, (cfg0.win 16).flush t = true ∧ i ∈ ((cfg0.win 16).blk t).view.set := by
  have h0 : (i 0).val < 1 := (i 0).isLt
  have h1 : (i 1).val < 1 := (i 1).isLt
  have h2 : (i 2).val < 4096 := (i 2).isLt
  obtain ⟨t, tv⟩ : ∃ t : Fin cfg0.N, t.val = (i 2).val / 128 := ⟨⟨(i 2).val / 128, by rw [N32]; omega⟩, rfl⟩
  have e0 : win0_16.index t (0 : Fin 3) = 0 := (idx_facts t).2.2.2.2.2.2.2.2.2.2.2.2.2.2.2.2.2.2.2.2.2.2.2.2.2.2.2.2.2.2.2.2.2.1
  have e1 : win0_16.index t (1 : Fin 3) = 0 := (idx_facts t).2.2.2.2.2.2.2.2.2.2.2.2.2.2.2.2.2.2.2.2.2.2.2.2.2.2.2.2.2.2.2.2.2.2.1
  have e2 : win0_16.index t (2 : Fin 3) = t.val := (idx_facts t).2.2.2.2.2.2.2.2.2.2.2.2.2.2.2.2.2.2.2.2.2.2.2.2.2.2.2.2.2.2.2.2.2.2.2
  refine ⟨t, flush0_16 t, ?_⟩
  rw [mem_blk16]
  intro a
  match a with
  | ⟨0, _⟩ => show win0_16.index t (0 : Fin 3) * 1 ≤ (i 0).val ∧ (i 0).val < win0_16.index t (0 : Fin 3) * 1 + 1; omega
  | ⟨1, _⟩ => show win0_16.index t (1 : Fin 3) * 1 ≤ (i 1).val ∧ (i 1).val < win0_16.index t (1 : Fin 3) * 1 + 1; omega
  | ⟨2, _⟩ => show win0_16.index t (2 : Fin 3) * 128 ≤ (i 2).val ∧ (i 2).val < win0_16.index t (2 : Fin 3) * 128 + 128; omega

/-- THE ARRAY of output window 16 after the run is `Cell.laneC` of the argument arrays. -/
theorem final16 (c : Dev nD) : (dats m 0 c).arrAt 16 cfg0.N = Cell.laneC (A0 m c) (A1 m c) (A2 m c) (A3 m c) (A4 m c) (A5 m c) (A7 m c) (A8 m c) (A9 m c) (A11 m c) (A12 m c) (A13 m c) :=
  (dats m 0 c).arrAt_eq_of_cover 16 (Cell.laneC (A0 m c) (A1 m c) (A2 m c) (A3 m c) (A4 m c) (A5 m c) (A7 m c) (A8 m c) (A9 m c) (A11 m c) (A12 m c) (A13 m c)) (fun t _ => flushed16 m c t) (cover16)

/-- Lane p of output window 15's block at point t is lane 128 t + p of its array. -/
theorem lane15 (t : Fin cfg0.N) (a b : Fin 1) (p : Fin 128) :
    ((((cfg0.win 15).blk t).view.emb (ix3 a b p)) (2 : Fin 3)).val = 128 * t.val + p.val := by
  have e2 : win0_15.index t (2 : Fin 3) = t.val := (idx_facts t).2.2.2.2.2.2.2.2.2.2.2.2.2.2.2.2.2.2.2.2.2.2.2.2.2.2.2.2.2.2.2.2.1
  show win0_15.index t (2 : Fin 3) * 128 + 1 * p.val = _
  omega

/-- WHAT POINT t WRITES BACK through output window 15 is block t of `Cell.laneH` of the argument arrays. -/
theorem flushed15 (c : Dev nD) (t : Fin cfg0.N) :
    (dats m 0 c).flushed 15 t = ((cfg0.win 15).blk t).view.read (Elt Ideal) (Cell.laneH (A0 m c) (A1 m c) (A2 m c) (A3 m c) (A4 m c) (A5 m c) (A6 m c) (A7 m c) (A8 m c) (A9 m c) (A10 m c) (A11 m c) (A12 m c) (A13 m c) (A14 m c)) := by
  have ht : t.val < 32 := lt_of_lt_of_eq t.isLt N32
  show (cfg0.win 15).cut (grid0.coords t) ((dats m 0 c).after 15 t) = _
  rw [after0_15]
  unfold out0_15
  rw [View.canon_unit_zero hz3]
  simp only [View.ld_unit_zero (S := S4096x1) hz2, View.ld_unit_zero (S := S128x1) hz2, View.ld_unit_zero (S := S128x4096) hz2]
  funext j
  obtain ⟨a, b, p, rfl⟩ : ∃ (a b : Fin 1) (p : Fin 128), j = ix3 a b p := ⟨j 0, j 1, j 2, eq_ix3 j⟩
  have hp : p.val < 128 := p.isLt
  obtain ⟨r, hr⟩ : ∃ r : Fin 4096, r.val = 128 * t.val + p.val := ⟨⟨128 * t.val + p.val, by omega⟩, rfl⟩
  obtain ⟨hi, hf, hg, ho⟩ := gates m c t p r hr
  rw [View.read_apply]
  refine (Body.h_store (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a b p).trans ?_
  refine (Cell.blkH_eq ho (Cell.blkC_eq hi hf hg (blk2 m c t p r hr))).trans ?_
  exact (Cell.laneH_apply _ _ _ _ _ _ _ _ _ _ _ _ _ _ _ _ r ((lane15 t a b p).trans hr.symm)).symm

/-- An index of the array is in point t's block iff each coordinate is in the block's range on its axis. -/
theorem mem_blk15 (t : Fin cfg0.N) (i : S1x1x4096.Idx) :
    i ∈ ((cfg0.win 15).blk t).view.set ↔ ∀ a : Fin 3, win0_15.index t a * S1x1x128.size a ≤ (i a).val ∧ (i a).val < win0_15.index t a * S1x1x128.size a + S1x1x128.size a := by
  show i ∈ ((View.whole main_v3_0).slice (win0_15.rect t)).set ↔ _
  rw [View.set_slice_whole, Rect.mem_set_unit]
  exact Iff.rfl

/-- Every lane is in some point's block: lane l in the block of point l / 128. -/
theorem cover15 (i : S1x1x4096.Idx) : ∃ t : Fin cfg0.N, (cfg0.win 15).flush t = true ∧ i ∈ ((cfg0.win 15).blk t).view.set := by
  have h0 : (i 0).val < 1 := (i 0).isLt
  have h1 : (i 1).val < 1 := (i 1).isLt
  have h2 : (i 2).val < 4096 := (i 2).isLt
  obtain ⟨t, tv⟩ : ∃ t : Fin cfg0.N, t.val = (i 2).val / 128 := ⟨⟨(i 2).val / 128, by rw [N32]; omega⟩, rfl⟩
  have e0 : win0_15.index t (0 : Fin 3) = 0 := (idx_facts t).2.2.2.2.2.2.2.2.2.2.2.2.2.2.2.2.2.2.2.2.2.2.2.2.2.2.2.2.2.2.1
  have e1 : win0_15.index t (1 : Fin 3) = 0 := (idx_facts t).2.2.2.2.2.2.2.2.2.2.2.2.2.2.2.2.2.2.2.2.2.2.2.2.2.2.2.2.2.2.2.1
  have e2 : win0_15.index t (2 : Fin 3) = t.val := (idx_facts t).2.2.2.2.2.2.2.2.2.2.2.2.2.2.2.2.2.2.2.2.2.2.2.2.2.2.2.2.2.2.2.2.1
  refine ⟨t, flush0_15 t, ?_⟩
  rw [mem_blk15]
  intro a
  match a with
  | ⟨0, _⟩ => show win0_15.index t (0 : Fin 3) * 1 ≤ (i 0).val ∧ (i 0).val < win0_15.index t (0 : Fin 3) * 1 + 1; omega
  | ⟨1, _⟩ => show win0_15.index t (1 : Fin 3) * 1 ≤ (i 1).val ∧ (i 1).val < win0_15.index t (1 : Fin 3) * 1 + 1; omega
  | ⟨2, _⟩ => show win0_15.index t (2 : Fin 3) * 128 ≤ (i 2).val ∧ (i 2).val < win0_15.index t (2 : Fin 3) * 128 + 128; omega

/-- THE ARRAY of output window 15 after the run is `Cell.laneH` of the argument arrays. -/
theorem final15 (c : Dev nD) : (dats m 0 c).arrAt 15 cfg0.N = Cell.laneH (A0 m c) (A1 m c) (A2 m c) (A3 m c) (A4 m c) (A5 m c) (A6 m c) (A7 m c) (A8 m c) (A9 m c) (A10 m c) (A11 m c) (A12 m c) (A13 m c) (A14 m c) :=
  (dats m 0 c).arrAt_eq_of_cover 15 (Cell.laneH (A0 m c) (A1 m c) (A2 m c) (A3 m c) (A4 m c) (A5 m c) (A6 m c) (A7 m c) (A8 m c) (A9 m c) (A10 m c) (A11 m c) (A12 m c) (A13 m c) (A14 m c)) (fun t _ => flushed15 m c t) (cover15)

/-! ## The column after the region -/

/-- After the region the program reshapes the second output, a [1, 1, 4096] array, to a [4096, 1] column: entry
    [r, 0] of the column is lane r of the array, so the column holds `Cell.colC` of the argument arrays. -/
theorem tail_v4 (c : Dev nD) : Pipeline.afterTail₀ cfgs (dats m) 0 (V0 m) [hostOps1] c main_v4 = Cell.colC (A0 m c) (A1 m c) (A2 m c) (A3 m c) (A4 m c) (A5 m c) (A7 m c) (A8 m c) (A9 m c) (A11 m c) (A12 m c) (A13 m c) := by
  have e : Pipeline.withArrays spec0 c (V0 m c) (fun w => (dats m 0 c).arrAt w cfg0.N) (Proc.devRef .tc main_v3_1)
      = Cell.laneC (A0 m c) (A1 m c) (A2 m c) (A3 m c) (A4 m c) (A5 m c) (A7 m c) (A8 m c) (A9 m c) (A11 m c) (A12 m c) (A13 m c) :=
    (Pipeline.withArrays_arr spec0 launch0.win.arr_inj c (V0 m c) (fun w => (dats m 0 c).arrAt w cfg0.N) 16).trans (final16 m c)
  unfold Pipeline.afterTail₀
  show StableHlo.after hostOps1 _ (Proc.devRef .tc main_v4) = _
  after_results
  funext i
  obtain ⟨r, q, rfl⟩ : ∃ (r : Fin 4096) (q : Fin 1), i = ix2 r q := ⟨i 0, i 1, eq_ix2 i⟩
  show shapeCast S4096x1 (Pipeline.withArrays spec0 c (V0 m c) (fun w => (dats m 0 c).arrAt w cfg0.N) (Proc.devRef .tc main_v3_1))
      shapeCasts_S1x1x4096_S4096x1 (ix2 r q) = _
  rw [e]
  have hq : q.val = 0 := by have := q.isLt; omega
  refine (shapeCast_apply (Cell.laneC (A0 m c) (A1 m c) (A2 m c) (A3 m c) (A4 m c) (A5 m c) (A7 m c) (A8 m c) (A9 m c) (A11 m c) (A12 m c) (A13 m c)) shapeCasts_S1x1x4096_S4096x1 (ix2 r q) (ix3 (0 : Fin 1) (0 : Fin 1) r) ?_).trans ?_
  · rewrite [Shape.rowMajor_val_two, Shape.rowMajor_val_three]
    show (0 * 1 + 0) * 4096 + r.val = r.val * 1 + q.val
    omega
  · exact (Cell.laneC_apply _ _ _ _ _ _ _ _ _ _ _ _ (ix3 (0 : Fin 1) (0 : Fin 1) r) r rfl).trans
      (Cell.colC_apply _ _ _ _ _ _ _ _ _ _ _ _ (ix2 r q) r rfl).symm

/-! ## The run, read -/

/-- Every weakly fair execution of the idealized kernel's program terminates with the hidden-state array (returned
    twice) at `Cell.laneH` and the cell-state column at `Cell.colC` of the argument arrays, the arguments unchanged. -/
theorem run : θ_run defs (onTc (τ := τ) (main (F := Ideal))) ⟨m, fun _ => 0, ρ⟩ fun r => ∀ c : Dev nD,
      r.2.mem ((c.tc : Thread nD τ).loc main_v3_0) = Cell.laneH (A0 m c) (A1 m c) (A2 m c) (A3 m c) (A4 m c) (A5 m c) (A6 m c) (A7 m c) (A8 m c) (A9 m c) (A10 m c) (A11 m c) (A12 m c) (A13 m c) (A14 m c)
      ∧ r.2.mem ((c.tc : Thread nD τ).loc main_v3_0) = Cell.laneH (A0 m c) (A1 m c) (A2 m c) (A3 m c) (A4 m c) (A5 m c) (A6 m c) (A7 m c) (A8 m c) (A9 m c) (A10 m c) (A11 m c) (A12 m c) (A13 m c) (A14 m c)
      ∧ r.2.mem ((c.tc : Thread nD τ).loc main_v4) = Cell.colC (A0 m c) (A1 m c) (A2 m c) (A3 m c) (A4 m c) (A5 m c) (A7 m c) (A8 m c) (A9 m c) (A11 m c) (A12 m c) (A13 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 15).trans (final15 m c), ((h c).1 15).trans (final15 m c),
      ((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩)
    (run_main m ρ)

end Cert.KernelIdeal.Arrays

end
-- ==== Proof.lean ====
/-
  One step of a gated recurrent cell on vectors of length 4096: a tiled kernel against a plain reference, compared on
  the extended reals.

  Both programs take the input x, the previous hidden state h and cell state c, eight 4096 × 4096 weight matrices and
  four bias columns, and return the new hidden state (twice, as a [1, 1, 4096] array) and the new cell state (as a
  [4096, 1] column). At row r both compute

      c' r = f r · c r + i r · g r,        h' r = o r · tanh (c' r),

  each of the gates i, f, g, o the logistic function of  (row r of an input weight matrix) · x  +  (row r of a
  recurrent weight matrix) · h  +  (entry r of a bias column)  — the cell of Cell.lean.

  The reference computes this on whole arrays, its logistic function spelt 1 / (1 + exp (-z)), which is the same
  function on every extended real (RefCell.lean). The kernel walks 32 blocks of 128 rows: on a block it rounds the
  weights and the two vectors to bf16, which changes nothing on the extended reals, forms the same pre-activations by
  products into a zero accumulator, and writes its 128 results as lanes 128 t … 128 t + 127 of the two output arrays
  (BodyCell.lean, CellArrays.lean); the 32 blocks cover the 4096 lanes, and the second output is reshaped to a column
  after the region. The two sides apply the same operations in the same order to the same entries, so the results
  agree entry by entry whatever the inputs hold: the finiteness precondition is never opened.

  The kernel's idealization rewrote no operation, so the fourth claim is `True`. The kernel's two frames are the
  generated frame certificates; the reference's frame is its generated run with the results dropped.
-/
import proofs.«176720_j86380382257772_2_alg».proof.Defs
import proofs.«176720_j86380382257772_2_alg».proof.Proof.Gen.Kernel
import proofs.«176720_j86380382257772_2_alg».proof.Proof.Gen.Kernel.Skeleton
import proofs.«176720_j86380382257772_2_alg».proof.Proof.Gen.Kernel.Launch
import proofs.«176720_j86380382257772_2_alg».proof.Proof.Gen.Kernel.Points
import proofs.«176720_j86380382257772_2_alg».proof.Proof.Gen.Kernel.Frame
import proofs.«176720_j86380382257772_2_alg».proof.Proof.Gen.KernelIdeal
import proofs.«176720_j86380382257772_2_alg».proof.Proof.Gen.KernelIdeal.Skeleton
import proofs.«176720_j86380382257772_2_alg».proof.Proof.Gen.KernelIdeal.Launch
import proofs.«176720_j86380382257772_2_alg».proof.Proof.Gen.KernelIdeal.Points
import proofs.«176720_j86380382257772_2_alg».proof.Proof.Gen.KernelIdeal.Frame
import proofs.«176720_j86380382257772_2_alg».proof.Proof.Gen.ReferenceIdeal
import proofs.«176720_j86380382257772_2_alg».proof.Proof.Gen.ReferenceIdeal.Run
import proofs.«176720_j86380382257772_2_alg».proof.Proof.Gen.ReferenceIdeal.Read
import proofs.«176720_j86380382257772_2_alg».proof.Proof.Gen.Pre_finite_inputs
import Idealize.ShloMosaic.Adequacy
import Idealize.ShloMosaic.Init

import proofs.«176720_j86380382257772_2_alg».proof.Proof.RefCell
import proofs.«176720_j86380382257772_2_alg».proof.Proof.CellArrays

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with what it says of the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the fifteen arguments, the idealized kernel ends with its two outputs at `Cell.laneH`
    and `Cell.colC` of the arguments (CellArrays.lean) and the reference with its results at the same two functions
    of the same arrays (RefCell.lean). -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12, g13, g14⟩ := hagree c
  refine ⟨(h c).1.trans ?_, (h c).2.1.trans ?_, (h c).2.2.1.trans ?_, (h c).2.2.2⟩
  · rw [Cert.ReferenceIdeal.Read.val_main_v48_eq, Cert.ReferenceIdeal.RefCell.v48_eq, g0, g1, g2, g3, g4, g5, g6, g7, g8, g9, g10, g11, g12, g13, g14]
  · rw [Cert.ReferenceIdeal.Read.val_main_v48_eq, Cert.ReferenceIdeal.RefCell.v48_eq, g0, g1, g2, g3, g4, g5, g6, g7, g8, g9, g10, g11, g12, g13, g14]
  · rw [Cert.ReferenceIdeal.Read.val_main_v45_eq, Cert.ReferenceIdeal.RefCell.v45_eq, g0, g1, g2, g3, g4, g5, g7, g8, g9, g11, g12, g13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
